-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S8x64 : Shape := ⟨2, ![8, 64]⟩
abbrev S8 : Shape := ⟨1, ![8]⟩
abbrev S64x8 : Shape := ⟨2, ![64, 8]⟩
abbrev S64 : Shape := ⟨1, ![64]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_
  bcast_S_S64x8 : S_.BroadcastsInDim S64x8 (![] : Fin 0 → Fin S64x8.rank)
  reducesTo_S64x8_S_d0_1 : S64x8.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S16x64x256x256 .f32) (main_arg1 : FVec F S8x64 .f32) (main_arg2 : FVec F S8 .f32) (main_arg3 : FVec F S64x8 .f32) (main_arg4 : FVec F S64 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S8x64 .f32 := Host.absf main_arg1
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S64x8 .f32 := Host.absf main_arg3
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg4 main_v13 main_v16
-- ==== Kernel.lean ====
abbrev S16x64x256x256 : Shape := ⟨4, ![16, 64, 256, 256]⟩
abbrev S8x64 : Shape := ⟨2, ![8, 64]⟩
abbrev S8 : Shape := ⟨1, ![8]⟩
abbrev S64x8 : Shape := ⟨2, ![64, 8]⟩
abbrev S64 : Shape := ⟨1, ![64]⟩
abbrev S16x64x65536 : Shape := ⟨3, ![16, 64, 65536]⟩
abbrev S16x1x64 : Shape := ⟨3, ![16, 1, 64]⟩
abbrev S16x64x64 : Shape := ⟨3, ![16, 64, 64]⟩
abbrev S1x64x32768 : Shape := ⟨3, ![1, 64, 32768]⟩
abbrev S1x1x64 : Shape := ⟨3, ![1, 1, 64]⟩
abbrev S1x64x64 : Shape := ⟨3, ![1, 64, 64]⟩
abbrev S64x32768 : Shape := ⟨2, ![64, 32768]⟩
abbrev S64x64 : Shape := ⟨2, ![64, 64]⟩
abbrev S1x8 : Shape := ⟨2, ![1, 8]⟩
abbrev S1x64 : Shape := ⟨2, ![1, 64]⟩
abbrev S16x64x1 : Shape := ⟨3, ![16, 64, 1]⟩
abbrev S1x64x1 : Shape := ⟨3, ![1, 64, 1]⟩
abbrev S64x1 : Shape := ⟨2, ![64, 1]⟩
abbrev S1 : Shape := ⟨1, ![1]⟩
abbrev S1x1x1 : Shape := ⟨3, ![1, 1, 1]⟩

abbrev nBuf : Space → Nat
  | .hbm => 13
  | .vmem => 22
  | .smem => 0
  | _ => 0

abbrev bufTy : (tb : Table) → Fin (tcTables nBuf tb) → BufTy
  | .hbm, ⟨0, _⟩ => ⟨S16x64x256x256, .f32⟩
  | .hbm, ⟨1, _⟩ => ⟨S8x64, .f32⟩
  | .hbm, ⟨2, _⟩ => ⟨S8, .f32⟩
  | .hbm, ⟨3, _⟩ => ⟨S64x8, .f32⟩
  | .hbm, ⟨4, _⟩ => ⟨S64, .f32⟩
  | .hbm, ⟨5, _⟩ => ⟨S16x64x65536, .f32⟩
  | .hbm, ⟨6, _⟩ => ⟨S16x1x64, .f32⟩
  | .hbm, ⟨7, _⟩ => ⟨S16x64x64, .f32⟩
  | .hbm, ⟨8, _⟩ => ⟨S1x8, .f32⟩
  | .hbm, ⟨9, _⟩ => ⟨S1x64, .f32⟩
  | .hbm, ⟨10, _⟩ => ⟨S16x64x1, .f32⟩
  | .hbm, ⟨11, _⟩ => ⟨S16x64x65536, .f32⟩
  | .hbm, ⟨12, _⟩ => ⟨S16x64x256x256, .f32⟩
  | .local _ .vmem, ⟨0, _⟩ => ⟨S1x64x32768, .f32⟩
  | .local _ .vmem, ⟨1, _⟩ => ⟨S1x64x32768, .f32⟩
  | .local _ .vmem, ⟨2, _⟩ => ⟨S1x1x64, .f32⟩
  | .local _ .vmem, ⟨3, _⟩ => ⟨S1x1x64, .f32⟩
  | .local _ .vmem, ⟨4, _⟩ => ⟨S1x64x64, .f32⟩
  | .local _ .vmem, ⟨5, _⟩ => ⟨S1x64x64, .f32⟩
  | .local _ .vmem, ⟨6, _⟩ => ⟨S1x1x64, .f32⟩
  | .local _ .vmem, ⟨7, _⟩ => ⟨S1x1x64, .f32⟩
  | .local _ .vmem, ⟨8, _⟩ => ⟨S1x64x64, .f32⟩
  | .local _ .vmem, ⟨9, _⟩ => ⟨S1x64x64, .f32⟩
  | .local _ .vmem, ⟨10, _⟩ => ⟨S8x64, .f32⟩
  | .local _ .vmem, ⟨11, _⟩ => ⟨S1x8, .f32⟩
  | .local _ .vmem, ⟨12, _⟩ => ⟨S64x8, .f32⟩
  | .local _ .vmem, ⟨13, _⟩ => ⟨S1x64, .f32⟩
  | .local _ .vmem, ⟨14, _⟩ => ⟨S1x64x1, .f32⟩
  | .local _ .vmem, ⟨15, _⟩ => ⟨S1x64x1, .f32⟩
  | .local _ .vmem, ⟨16, _⟩ => ⟨S1x64x1, .f32⟩
  | .local _ .vmem, ⟨17, _⟩ => ⟨S1x64x1, .f32⟩
  | .local _ .vmem, ⟨18, _⟩ => ⟨S1x64x32768, .f32⟩
  | .local _ .vmem, ⟨19, _⟩ => ⟨S1x64x32768, .f32⟩
  | .local _ .vmem, ⟨20, _⟩ => ⟨S1x64x32768, .f32⟩
  | .local _ .vmem, ⟨21, _⟩ => ⟨S1x64x32768, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x64x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![16, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x64x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x64x32768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x64x32768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S16x64x256x256_S16x64x65536 : S16x64x256x256.ShapeCasts S16x64x65536
  inb_S1x1x64_S1x1x64_0_0_0 : ∀ a, (![0, 0, 0] : Fin 3 → Nat) a + S1x1x64.size a ≤ S1x1x64.size a
  h_S1x1x64 : 0 < S1x1x64.numel
  inb_S1x64x64_S1x64x64_0_0_0 : ∀ a, (![0, 0, 0] : Fin 3 → Nat) a + S1x64x64.size a ≤ S1x64x64.size a
  h_S1x64x64 : 0 < S1x64x64.numel
  inb_S1x64x32768_S1x64x32768_0_0_0 : ∀ a, (![0, 0, 0] : Fin 3 → Nat) a + S1x64x32768.size a ≤ S1x64x32768.size a
  h_S1x64x32768 : 0 < S1x64x32768.numel
  shapeCasts_S1x64x32768_S64x32768 : S1x64x32768.ShapeCasts S64x32768
  shapeCasts_S1x1x64_S1x1x64 : S1x1x64.ShapeCasts S1x1x64
  reduces_S64x32768_S64 : S64x32768.Reduces [1] S64
  shapeCasts_S64_S1x1x64 : S64.ShapeCasts S1x1x64
  shapeCasts_S1x64x64_S1x64x64 : S1x64x64.ShapeCasts S1x64x64
  shapeCasts_S64x64_S1x64x64 : S64x64.ShapeCasts S1x64x64
  shapeCasts_S8_S1x8 : S8.ShapeCasts S1x8
  shapeCasts_S64_S1x64 : S64.ShapeCasts S1x64
  shapeCasts_S1x1x64_S64 : S1x1x64.ShapeCasts S64
  shapeCasts_S1x64x64_S64x64 : S1x64x64.ShapeCasts S64x64
  shapeCasts_S64_S64x1 : S64.ShapeCasts S64x1
  broadcasts_S64x1_S64x64 : S64x1.Broadcasts S64x64
  broadcasts_S1x64_S64x64 : S1x64.Broadcasts S64x64
  iota_S64x64_d0_w32 : S64x64.Iotas .tc 32 [0]
  iota_S64x64_d1_w32 : S64x64.Iotas .tc 32 [1]
  natLt_1_32 : 1 < 32
  reduces_S1x64x64_S1 : S1x64x64.Reduces [1, 2] S1
  shapeCasts_S1_S1x1x1 : S1.ShapeCasts S1x1x1
  inpos_S1x1x1_p0_0_0 : ∀ a, (![0, 0, 0] : Fin 3 → Nat) a < S1x1x1.size a
  reduces_S64x64_S64 : S64x64.Reduces [0] S64
  inb_S8x64_S8x64_0_0 : ∀ a, (![0, 0] : Fin 2 → Nat) a + S8x64.size a ≤ S8x64.size a
  h_S8x64 : 0 < S8x64.numel
  inb_S1x8_S1x8_0_0 : ∀ a, (![0, 0] : Fin 2 → Nat) a + S1x8.size a ≤ S1x8.size a
  h_S1x8 : 0 < S1x8.numel
  shapeCasts_S1x8_S8 : S1x8.ShapeCasts S8
  inb_S64x8_S64x8_0_0 : ∀ a, (![0, 0] : Fin 2 → Nat) a + S64x8.size a ≤ S64x8.size a
  h_S64x8 : 0 < S64x8.numel
  inb_S1x64_S1x64_0_0 : ∀ a, (![0, 0] : Fin 2 → Nat) a + S1x64.size a ≤ S1x64.size a
  h_S1x64 : 0 < S1x64.numel
  shapeCasts_S1x64_S64 : S1x64.ShapeCasts S64
  shapeCasts_S1x64_S64x1 : S1x64.ShapeCasts S64x1
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  broadcasts_S64x1_S64x32768 : S64x1.Broadcasts S64x32768
  shapeCasts_S64x32768_S1x64x32768 : S64x32768.ShapeCasts S1x64x32768
  shapeCasts_S16x64x65536_S16x64x256x256 : S16x64x65536.ShapeCasts S16x64x256x256
  dot_S64x32768_S64x32768_S64x64_1_1_0_0_n_n_wf : DotDims.WF S64x32768 S64x32768 S64x64 [1] [1] [0] [0] [] []
  dot_S64x64_S64x64_S64x64_1_0_0_1_n_n_wf : DotDims.WF S64x64 S64x64 S64x64 [1] [0] [0] [1] [] []
  dot_S1x64_S8x64_S1x8_1_1_0_0_n_n_wf : DotDims.WF S1x64 S8x64 S1x8 [1] [1] [0] [0] [] []
  dot_S1x8_S64x8_S1x64_1_1_0_0_n_n_wf : DotDims.WF S1x8 S64x8 S1x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x32768.size a ≤ S16x64x65536.size a
  hwx0_0 : ∀ i : grid0.Coords, EltTy.bits .f32 = 32 ∨ (Rect.block (s := S16x64x65536) S1x64x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64.size a ≤ S16x1x64.size a
  hwx0_1 : ∀ i : grid0.Coords, EltTy.bits .f32 = 32 ∨ (Rect.block (s := S16x1x64) S1x1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S16x64x64.size a
  hwx0_2 : ∀ i : grid0.Coords, EltTy.bits .f32 = 32 ∨ (Rect.block (s := S16x64x64) S1x64x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x64.size a ≤ S16x1x64.size a
  hwx1_0 : ∀ i : grid1.Coords, EltTy.bits .f32 = 32 ∨ (Rect.block (s := S16x1x64) S1x1x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S16x64x64.size a
  hwx1_1 : ∀ i : grid1.Coords, EltTy.bits .f32 = 32 ∨ (Rect.block (s := S16x64x64) S1x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x64.size a ≤ S8x64.size a
  hwx1_2 : ∀ i : grid1.Coords, EltTy.bits .f32 = 32 ∨ (Rect.block (s := S8x64) S8x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x8.size a ≤ S64x8.size a
  hwx1_4 : ∀ i : grid1.Coords, EltTy.bits .f32 = 32 ∨ (Rect.block (s := S64x8) S64x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x64x1.size a ≤ S16x64x1.size a
  hwx1_6 : ∀ i : grid1.Coords, EltTy.bits .f32 = 32 ∨ (Rect.block (s := S16x64x1) S1x64x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x64x1.size a ≤ S16x64x1.size a
  hwx2_0 : ∀ i : grid2.Coords, EltTy.bits .f32 = 32 ∨ (Rect.block (s := S16x64x1) S1x64x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x32768.size a ≤ S16x64x65536.size a
  hwx2_1 : ∀ i : grid2.Coords, EltTy.bits .f32 = 32 ∨ (Rect.block (s := S16x64x65536) S1x64x32768.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x64x32768.size a ≤ S16x64x65536.size a
  hwx2_2 : ∀ i : grid2.Coords, EltTy.bits .f32 = 32 ∨ (Rect.block (s := S16x64x65536) S1x64x32768.size (cc2_transform_2 i) (hinb2_2 i)).WholeWords (EltTy.packing .f32)

variable [Facts₀]

def dot_S64x32768_S64x32768_S64x64_1_1_0_0_n_n : DotDims S64x32768 S64x32768 S64x64 where
  lhsContracting := [1]
  rhsContracting := [1]
  lhsNonContracting := [0]
  rhsNonContracting := [0]
  lhsBatch := []
  rhsBatch := []
  wf := dot_S64x32768_S64x32768_S64x64_1_1_0_0_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S1x64_S8x64_S1x8_1_1_0_0_n_n : DotDims S1x64 S8x64 S1x8 where
  lhsContracting := [1]
  rhsContracting := [1]
  lhsNonContracting := [0]
  rhsNonContracting := [0]
  lhsBatch := []
  rhsBatch := []
  wf := dot_S1x64_S8x64_S1x8_1_1_0_0_n_n_wf
def dot_S1x8_S64x8_S1x64_1_1_0_0_n_n : DotDims S1x8 S64x8 S1x64 where
  lhsContracting := [1]
  rhsContracting := [1]
  lhsNonContracting := [0]
  rhsNonContracting := [0]
  lhsBatch := []
  rhsBatch := []
  wf := dot_S1x8_S64x8_S1x64_1_1_0_0_n_n_wf

abbrev win0_0 : Pipeline.Window sig grid0 :=
  Pipeline.Window.ofSpec (Memref.whole main_v0) S1x64x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1x64.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1_0) S1x1x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S8x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x64x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v4) S1x64x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1x64x32768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x64x32768.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where
  halias2_2 : Pipeline.Aliased win2 1 2

variable [Facts]
-- ==== ReferenceIdeal.lean ====
abbrev S16x64x256x256 : Shape := ⟨4, ![16, 64, 256, 256]⟩
abbrev S8x64 : Shape := ⟨2, ![8, 64]⟩
abbrev S8 : Shape := ⟨1, ![8]⟩
abbrev S64x8 : Shape := ⟨2, ![64, 8]⟩
abbrev S64 : Shape := ⟨1, ![64]⟩
abbrev S16x64x65536 : Shape := ⟨3, ![16, 64, 65536]⟩
abbrev S_ : Shape := ⟨0, ![]⟩
abbrev S16x64 : Shape := ⟨2, ![16, 64]⟩
abbrev S16x64x1 : Shape := ⟨3, ![16, 64, 1]⟩
abbrev S16x64x64 : Shape := ⟨3, ![16, 64, 64]⟩
abbrev S64x64 : Shape := ⟨2, ![64, 64]⟩
abbrev S16 : Shape := ⟨1, ![16]⟩
abbrev S16x1x1 : Shape := ⟨3, ![16, 1, 1]⟩
abbrev S1x64x64 : Shape := ⟨3, ![1, 64, 64]⟩
abbrev S16x8 : Shape := ⟨2, ![16, 8]⟩
abbrev S1x8 : Shape := ⟨2, ![1, 8]⟩
abbrev S1x64 : Shape := ⟨2, ![1, 64]⟩
abbrev S16x64x1x1 : Shape := ⟨4, ![16, 64, 1, 1]⟩

abbrev nBuf : Space → Nat
  | .hbm => 113
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S8x64, .f32⟩
  | .hbm, ⟨2, _⟩ => ⟨S8, .f32⟩
  | .hbm, ⟨3, _⟩ => ⟨S64x8, .f32⟩
  | .hbm, ⟨4, _⟩ => ⟨S64, .f32⟩
  | .hbm, ⟨5, _⟩ => ⟨S16x64x65536, .f32⟩
  | .hbm, ⟨6, _⟩ => ⟨S_, .f32⟩
  | .hbm, ⟨7, _⟩ => ⟨S16x64, .f32⟩
  | .hbm, ⟨8, _⟩ => ⟨S16x64x1, .f32⟩
  | .hbm, ⟨9, _⟩ => ⟨S_, .f32⟩
  | .hbm, ⟨10, _⟩ => ⟨S16x64x1, .f32⟩
  | .hbm, ⟨11, _⟩ => ⟨S16x64x1, .f32⟩
  | .hbm, ⟨12, _⟩ => ⟨S16x64x65536, .f32⟩
  | .hbm, ⟨13, _⟩ => ⟨S16x64x65536, .f32⟩
  | .hbm, ⟨14, _⟩ => ⟨S16x64x64, .f32⟩
  | .hbm, ⟨15, _⟩ => ⟨S_, .f32⟩
  | .hbm, ⟨16, _⟩ => ⟨S16x64x64, .f32⟩
  | .hbm, ⟨17, _⟩ => ⟨S16x64x64, .f32⟩
  | .hbm, ⟨18, _⟩ => ⟨S64x64, .i32⟩
  | .hbm, ⟨19, _⟩ => ⟨S64x64, .i32⟩
  | .hbm, ⟨20, _⟩ => ⟨S_, .i32⟩
  | .hbm, ⟨21, _⟩ => ⟨S64x64, .i32⟩
  | .hbm, ⟨22, _⟩ => ⟨S64x64, .i32⟩
  | .hbm, ⟨23, _⟩ => ⟨S64x64, .i1⟩
  | .hbm, ⟨24, _⟩ => ⟨S64x64, .f32⟩
  | .hbm, ⟨25, _⟩ => ⟨S_, .f32⟩
  | .hbm, ⟨26, _⟩ => ⟨S64x64, .f32⟩
  | .hbm, ⟨27, _⟩ => ⟨S64x64, .f32⟩
  | .hbm, ⟨28, _⟩ => ⟨S64x64, .i32⟩
  | .hbm, ⟨29, _⟩ => ⟨S64x64, .i32⟩
  | .hbm, ⟨30, _⟩ => ⟨S64x64, .i1⟩
  | .hbm, ⟨31, _⟩ => ⟨S16x64x64, .i1⟩
  | .hbm, ⟨32, _⟩ => ⟨S_, .f32⟩
  | .hbm, ⟨33, _⟩ => ⟨S16x64x64, .f32⟩
  | .hbm, ⟨34, _⟩ => ⟨S16x64x64, .f32⟩
  | .hbm, ⟨35, _⟩ => ⟨S_, .f32⟩
  | .hbm, ⟨36, _⟩ => ⟨S16, .f32⟩
  | .hbm, ⟨37, _⟩ => ⟨S16x1x1, .f32⟩
  | .hbm, ⟨38, _⟩ => ⟨S16x64x64, .f32⟩
  | .hbm, ⟨39, _⟩ => ⟨S16x64x64, .f32⟩
  | .hbm, ⟨40, _⟩ => ⟨S1x64x64, .f32⟩
  | .hbm, ⟨41, _⟩ => ⟨S16x64x64, .f32⟩
  | .hbm, ⟨42, _⟩ => ⟨S16x64x64, .f32⟩
  | .hbm, ⟨43, _⟩ => ⟨S_, .f32⟩
  | .hbm, ⟨44, _⟩ => ⟨S16x64x64, .f32⟩
  | .hbm, ⟨45, _⟩ => ⟨S16x64x64, .f32⟩
  | .hbm, ⟨46, _⟩ => ⟨S16x64x64, .f32⟩
  | .hbm, ⟨47, _⟩ => ⟨S16x64x64, .f32⟩
  | .hbm, ⟨48, _⟩ => ⟨S1x64x64, .f32⟩
  | .hbm, ⟨49, _⟩ => ⟨S16x64x64, .f32⟩
  | .hbm, ⟨50, _⟩ => ⟨S16x64x64, .f32⟩
  | .hbm, ⟨51, _⟩ => ⟨S_, .f32⟩
  | .hbm, ⟨52, _⟩ => ⟨S16x64x64, .f32⟩
  | .hbm, ⟨53, _⟩ => ⟨S16x64x64, .f32⟩
  | .hbm, ⟨54, _⟩ => ⟨S16x64x64, .f32⟩
  | .hbm, ⟨55, _⟩ => ⟨S16x64x64, .f32⟩
  | .hbm, ⟨56, _⟩ => ⟨S16x64x64, .f32⟩
  | .hbm, ⟨57, _⟩ => ⟨S1x64x64, .f32⟩
  | .hbm, ⟨58, _⟩ => ⟨S16x64x64, .f32⟩
  | .hbm, ⟨59, _⟩ => ⟨S16x64x64, .f32⟩
  | .hbm, ⟨60, _⟩ => ⟨S_, .f32⟩
  | .hbm, ⟨61, _⟩ => ⟨S16x64x64, .f32⟩
  | .hbm, ⟨62, _⟩ => ⟨S16x64x64, .f32⟩
  | .hbm, ⟨63, _⟩ => ⟨S16x64x64, .f32⟩
  | .hbm, ⟨64, _⟩ => ⟨S16x64x64, .f32⟩
  | .hbm, ⟨65, _⟩ => ⟨S16x64x64, .f32⟩
  | .hbm, ⟨66, _⟩ => ⟨S1x64x64, .f32⟩
  | .hbm, ⟨67, _⟩ => ⟨S16x64x64, .f32⟩
  | .hbm, ⟨68, _⟩ => ⟨S16x64x64, .f32⟩
  | .hbm, ⟨69, _⟩ => ⟨S_, .f32⟩
  | .hbm, ⟨70, _⟩ => ⟨S16x64x64, .f32⟩
  | .hbm, ⟨71, _⟩ => ⟨S16x64x64, .f32⟩
  | .hbm, ⟨72, _⟩ => ⟨S16x64x64, .f32⟩
  | .hbm, ⟨73, _⟩ => ⟨S16x64x64, .f32⟩
  | .hbm, ⟨74, _⟩ => ⟨S16x64x64, .f32⟩
  | .hbm, ⟨75, _⟩ => ⟨S1x64x64, .f32⟩
  | .hbm, ⟨76, _⟩ => ⟨S16x64x64, .f32⟩
  | .hbm, ⟨77, _⟩ => ⟨S16x64x64, .f32⟩
  | .hbm, ⟨78, _⟩ => ⟨S16x64x64, .f32⟩
  | .hbm, ⟨79, _⟩ => ⟨S_, .f32⟩
  | .hbm, ⟨80, _⟩ => ⟨S16x64x64, .f32⟩
  | .hbm, ⟨81, _⟩ => ⟨S16x64x64, .f32⟩
  | .hbm, ⟨82, _⟩ => ⟨S16, .f32⟩
  | .hbm, ⟨83, _⟩ => ⟨S16x1x1, .f32⟩
  | .hbm, ⟨84, _⟩ => ⟨S16x64x64, .f32⟩
  | .hbm, ⟨85, _⟩ => ⟨S16x64x64, .f32⟩
  | .hbm, ⟨86, _⟩ => ⟨S_, .f32⟩
  | .hbm, ⟨87, _⟩ => ⟨S16x64, .f32⟩
  | .hbm, ⟨88, _⟩ => ⟨S_, .f32⟩
  | .hbm, ⟨89, _⟩ => ⟨S16x64, .f32⟩
  | .hbm, ⟨90, _⟩ => ⟨S16x64, .f32⟩
  | .hbm, ⟨91, _⟩ => ⟨S16x8, .f32⟩
  | .hbm, ⟨92, _⟩ => ⟨S1x8, .f32⟩
  | .hbm, ⟨93, _⟩ => ⟨S16x8, .f32⟩
  | .hbm, ⟨94, _⟩ => ⟨S16x8, .f32⟩
  | .hbm, ⟨95, _⟩ => ⟨S_, .f32⟩
  | .hbm, ⟨96, _⟩ => ⟨S16x8, .f32⟩
  | .hbm, ⟨97, _⟩ => ⟨S16x8, .f32⟩
  | .hbm, ⟨98, _⟩ => ⟨S16x64, .f32⟩
  | .hbm, ⟨99, _⟩ => ⟨S1x64, .f32⟩
  | .hbm, ⟨100, _⟩ => ⟨S16x64, .f32⟩
  | .hbm, ⟨101, _⟩ => ⟨S16x64, .f32⟩
  | .hbm, ⟨102, _⟩ => ⟨S16x64, .f32⟩
  | .hbm, ⟨103, _⟩ => ⟨S16x64, .f32⟩
  | .hbm, ⟨104, _⟩ => ⟨S_, .f32⟩
  | .hbm, ⟨105, _⟩ => ⟨S16x64, .f32⟩
  | .hbm, ⟨106, _⟩ => ⟨S16x64, .f32⟩
  | .hbm, ⟨107, _⟩ => ⟨S_, .f32⟩
  | .hbm, ⟨108, _⟩ => ⟨S16x64, .f32⟩
  | .hbm, ⟨109, _⟩ => ⟨S16x64, .f32⟩
  | .hbm, ⟨110, _⟩ => ⟨S16x64x1x1, .f32⟩
  | .hbm, ⟨111, _⟩ => ⟨S16x64x256x256, .f32⟩
  | .hbm, ⟨112, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_cst_11 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_call0_cst : Ref sig .tc := ⟨.hbm, 95, rfl⟩
abbrev main_call0_v0 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_12 : Ref sig .tc := ⟨.hbm, 104, rfl⟩
abbrev main_v83 : Ref sig .tc := ⟨.hbm, 105, rfl⟩
abbrev main_v84 : Ref sig .tc := ⟨.hbm, 106, rfl⟩
abbrev main_cst_13 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩

abbrev nD : Nat := 1
abbrev τ : Topo := Topo.v7x

variable {F : FTy → Type} [FloatOps F]

class Facts₀ : Prop where
  shapeCasts_S16x64x256x256_S16x64x65536 : S16x64x256x256.ShapeCasts S16x64x65536
  reducesTo_S16x64x65536_S16x64_d2 : S16x64x65536.ReducesTo [2] S16x64
  h_S_ : 0 < S_.numel
  bcast_S16x64_S16x64x1_0_1 : S16x64.BroadcastsInDim S16x64x1 (![0, 1] : Fin 2 → Fin S16x64x1.rank)
  bcast_S_S16x64x1 : S_.BroadcastsInDim S16x64x1 (![] : Fin 0 → Fin S16x64x1.rank)
  bcast_S16x64x1_S16x64x65536_0_1_2 : S16x64x1.BroadcastsInDim S16x64x65536 (![0, 1, 2] : Fin 3 → Fin S16x64x65536.rank)
  bcast_S_S16x64x64 : S_.BroadcastsInDim S16x64x64 (![] : Fin 0 → Fin S16x64x64.rank)
  bcast_S_S64x64 : S_.BroadcastsInDim S64x64 (![] : Fin 0 → Fin S64x64.rank)
  bcast_S64x64_S16x64x64_1_2 : S64x64.BroadcastsInDim S16x64x64 (![1, 2] : Fin 2 → Fin S16x64x64.rank)
  reducesTo_S16x64x64_S16_d1_2 : S16x64x64.ReducesTo [1, 2] S16
  bcast_S16_S16x1x1_0 : S16.BroadcastsInDim S16x1x1 (![0] : Fin 1 → Fin S16x1x1.rank)
  bcast_S16x1x1_S16x64x64_0_1_2 : S16x1x1.BroadcastsInDim S16x64x64 (![0, 1, 2] : Fin 3 → Fin S16x64x64.rank)
  bcast_S64x64_S1x64x64_1_2 : S64x64.BroadcastsInDim S1x64x64 (![1, 2] : Fin 2 → Fin S1x64x64.rank)
  bcast_S1x64x64_S16x64x64_0_1_2 : S1x64x64.BroadcastsInDim S16x64x64 (![0, 1, 2] : Fin 3 → Fin S16x64x64.rank)
  reducesTo_S16x64x64_S16x64_d1 : S16x64x64.ReducesTo [1] S16x64
  bcast_S_S16x64 : S_.BroadcastsInDim S16x64 (![] : Fin 0 → Fin S16x64.rank)
  bcast_S8_S1x8_1 : S8.BroadcastsInDim S1x8 (![1] : Fin 1 → Fin S1x8.rank)
  bcast_S1x8_S16x8_0_1 : S1x8.BroadcastsInDim S16x8 (![0, 1] : Fin 2 → Fin S16x8.rank)
  bcast_S_S16x8 : S_.BroadcastsInDim S16x8 (![] : Fin 0 → Fin S16x8.rank)
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  bcast_S16x64_S16x64x1x1_0_1 : S16x64.BroadcastsInDim S16x64x1x1 (![0, 1] : Fin 2 → Fin S16x64x1x1.rank)
  bcast_S16x64x1x1_S16x64x256x256_0_1_2_3 : S16x64x1x1.BroadcastsInDim S16x64x256x256 (![0, 1, 2, 3] : Fin 4 → Fin S16x64x256x256.rank)
  dot_S16x64x65536_S16x64x65536_S16x64x64_2_2_1_1_0_0_wf : DotDims.WF S16x64x65536 S16x64x65536 S16x64x64 [2] [2] [1] [1] [0] [0]
  dot_S16x64x64_S16x64x64_S16x64x64_2_1_1_2_0_0_wf : DotDims.WF S16x64x64 S16x64x64 S16x64x64 [2] [1] [1] [2] [0] [0]
  dot_S16x64_S8x64_S16x8_1_1_0_0_n_n_wf : DotDims.WF S16x64 S8x64 S16x8 [1] [1] [0] [0] [] []
  dot_S16x8_S64x8_S16x64_1_1_0_0_n_n_wf : DotDims.WF S16x8 S64x8 S16x64 [1] [1] [0] [0] [] []

variable [Facts₀]

def dot_S16x64x65536_S16x64x65536_S16x64x64_2_2_1_1_0_0 : DotDims S16x64x65536 S16x64x65536 S16x64x64 where
  lhsContracting := [2]
  rhsContracting := [2]
  lhsNonContracting := [1]
  rhsNonContracting := [1]
  lhsBatch := [0]
  rhsBatch := [0]
  wf := dot_S16x64x65536_S16x64x65536_S16x64x64_2_2_1_1_0_0_wf
def dot_S16x64x64_S16x64x64_S16x64x64_2_1_1_2_0_0 : DotDims S16x64x64 S16x64x64 S16x64x64 where
  lhsContracting := [2]
  rhsContracting := [1]
  lhsNonContracting := [1]
  rhsNonContracting := [2]
  lhsBatch := [0]
  rhsBatch := [0]
  wf := dot_S16x64x64_S16x64x64_S16x64x64_2_1_1_2_0_0_wf
def dot_S16x64_S8x64_S16x8_1_1_0_0_n_n : DotDims S16x64 S8x64 S16x8 where
  lhsContracting := [1]
  rhsContracting := [1]
  lhsNonContracting := [0]
  rhsNonContracting := [0]
  lhsBatch := []
  rhsBatch := []
  wf := dot_S16x64_S8x64_S16x8_1_1_0_0_n_n_wf
def dot_S16x8_S64x8_S16x64_1_1_0_0_n_n : DotDims S16x8 S64x8 S16x64 where
  lhsContracting := [1]
  rhsContracting := [1]
  lhsNonContracting := [0]
  rhsNonContracting := [0]
  lhsBatch := []
  rhsBatch := []
  wf := dot_S16x8_S64x8_S16x64_1_1_0_0_n_n_wf

class Facts : Prop extends Facts₀ where

variable [Facts]
-- ==== Proof.KernelRun.lean ====
/-
  The idealized kernel's run with its result named.

  The program is three pallas_calls among four stretches of host operations (a reshape of x to [16, 64, 65536]; two
  reshapes of the biases; a copy of the reshaped x into the buffer the last call overwrites; the reshape back to
  [16, 64, 256, 256]). Its run is the launch over these seven segments; every buffer that is not scoped to a call ends
  at the last boundary's contents, so the result buffer ends at those contents read at the result, and each argument as
  launched.
-/
import proofs.«120931_j11450382811433_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents read at the result, and the five arguments end as launched. -/
theorem run_result : θ_run defs (onTc (τ := τ) (main (F := F))) ⟨m, fun _ => 0, ρ⟩ (fun r => ∀ c : Dev nD,
      r.2.mem ((c.tc : Thread nD τ).loc main_v6) = W7 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v6 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.RunValue

end
-- ==== Proof.Fold.lean ====
/-
  The buffer contents at the boundaries of the program, read back to the launch memory.

  Between the launch and the return the program's buffers change in seven steps: four stretches of host operations and
  three pallas_calls. This module walks every buffer that the result depends on back through those steps:
  the reshaped input (written once, by the first stretch), the two moment arrays (written by the first call), the
  reshaped biases (second stretch), the gates (second call), the scaled array (third call, into a copy of the reshaped
  input made by the third stretch), and the result (the last stretch's reshape of the scaled array).
-/
import proofs.«120931_j11450382811433_2_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

/-- A stretch of host operations leaves a buffer none of them writes as it was. -/
local macro "host_skip" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The reshaped input -/

/-- After the first stretch the buffer of the reshaped input holds the input cast to [16, 64, 65536]. -/
theorem W1_v0 (c : Dev nD) : W1 m ρ c (Proc.devRef .tc main_v0)
    = shapeCast S16x64x65536 (m ((c : Thread nD τ).loc main_arg0)) shapeCasts_S16x64x256x256_S16x64x65536 := by
  show StableHlo.after hostOps0 (W0 m ρ c) (Proc.devRef .tc main_v0) = _
  after_results
  rfl

/-- The reshaped input is still that when the third call starts: the second stretch, the second call and the copy leave
    it alone, and the first call only reads it. -/
theorem W5_v0 (c : Dev nD) : W5 m ρ c (Proc.devRef .tc main_v0)
    = shapeCast S16x64x65536 (m ((c : Thread nD τ).loc main_arg0)) shapeCasts_S16x64x256x256_S16x64x65536 :=
  calc W5 m ρ c (Proc.devRef .tc main_v0)
    _ = W4 m ρ c (Proc.devRef .tc main_v0) := by host_skip hostOps2
    _ = W3 m ρ c (Proc.devRef .tc main_v0) := W4_of_ne m ρ c main_v0 (by decide)
    _ = W2 m ρ c (Proc.devRef .tc main_v0) := by host_skip hostOps1
    _ = W1 m ρ c (Proc.devRef .tc main_v0) :=
      (W2_arr m ρ c 0).trans (((dat0 (V1 m ρ) c).arrAt_in 0 rfl _).trans (A_eq0 (V1 m ρ) c 0))
    _ = _ := W1_v0 m ρ c

/-! ## The moment arrays, the weights and the reshaped biases when the second call starts -/

theorem W3_v1_0 (c : Dev nD) : W3 m ρ c (Proc.devRef .tc main_v1_0) = (dat0 (V1 m ρ) c).arrAt 1 cfg0.N :=
  calc W3 m ρ c (Proc.devRef .tc main_v1_0)
    _ = W2 m ρ c (Proc.devRef .tc main_v1_0) := by host_skip hostOps1
    _ = _ := W2_arr m ρ c 1

theorem W3_v1_1 (c : Dev nD) : W3 m ρ c (Proc.devRef .tc main_v1_1) = (dat0 (V1 m ρ) c).arrAt 2 cfg0.N :=
  calc W3 m ρ c (Proc.devRef .tc main_v1_1)
    _ = W2 m ρ c (Proc.devRef .tc main_v1_1) := by host_skip hostOps1
    _ = _ := W2_arr m ρ c 2

theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by host_skip hostOps1
    _ = W1 m ρ c (Proc.devRef .tc main_arg1) := W2_of_ne m ρ c main_arg1 (by decide)
    _ = W0 m ρ c (Proc.devRef .tc main_arg1) := by host_skip hostOps0
    _ = _ := rfl

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by host_skip hostOps1
    _ = W1 m ρ c (Proc.devRef .tc main_arg3) := W2_of_ne m ρ c main_arg3 (by decide)
    _ = W0 m ρ c (Proc.devRef .tc main_arg3) := by host_skip hostOps0
    _ = _ := rfl

theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by host_skip hostOps0
    _ = _ := rfl

theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by host_skip hostOps0
    _ = _ := rfl

/-- The first bias as the second call finds it: cast to [1, 8]. -/
theorem W3_v2 (c : Dev nD) : W3 m ρ c (Proc.devRef .tc main_v2)
    = shapeCast S1x8 (m ((c : Thread nD τ).loc main_arg2)) shapeCasts_S8_S1x8 := by
  show StableHlo.after hostOps1 (W2 m ρ c) (Proc.devRef .tc main_v2) = _
  after_results
  exact congrArg (fun z => shapeCast S1x8 z shapeCasts_S8_S1x8) (W2_arg2 m ρ c)

/-- The second bias as the second call finds it: cast to [1, 64]. -/
theorem W3_v3 (c : Dev nD) : W3 m ρ c (Proc.devRef .tc main_v3)
    = shapeCast S1x64 (m ((c : Thread nD τ).loc main_arg4)) shapeCasts_S64_S1x64 := by
  show StableHlo.after hostOps1 (W2 m ρ c) (Proc.devRef .tc main_v3) = _
  after_results
  exact congrArg (fun z => shapeCast S1x64 z shapeCasts_S64_S1x64) (W2_arg4 m ρ c)

/-! ## The gates when the third call starts, and the result -/

theorem W5_v4 (c : Dev nD) : W5 m ρ c (Proc.devRef .tc main_v4) = (dat1 (V3 m ρ) c).arrAt 6 cfg1.N :=
  calc W5 m ρ c (Proc.devRef .tc main_v4)
    _ = W4 m ρ c (Proc.devRef .tc main_v4) := by host_skip hostOps2
    _ = _ := W4_arr m ρ c 6

/-- The result is the last call's output array cast back to [16, 64, 256, 256]. -/
theorem W7_v6 (c : Dev nD) : W7 m ρ c (Proc.devRef .tc main_v6)
    = shapeCast S16x64x256x256 ((dat2 (V5 m ρ) c).arrAt 2 cfg2.N) shapeCasts_S16x64x65536_S16x64x256x256 := by
  show StableHlo.after hostOps3 (W6 m ρ c) (Proc.devRef .tc main_v6) = _
  after_results
  exact congrArg (fun z => shapeCast S16x64x256x256 z shapeCasts_S16x64x65536_S16x64x256x256) (W6_arr m ρ c 2)

end Cert.KernelIdeal.Fold

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.Scale.lean ====
/-
  The last kernel: every channel of the reshaped input scaled by its gate.

  The grid has 16 × 2 points; point (b, h) multiplies the block [b, :, 32768·h : 32768·(h+1)] of the reshaped input
  x3 : [16, 64, 65536], row by row, by the column att[b, :, 0] of the gates, and writes the product to the same block
  of the output. The blocks tile the output, so after the run the output array is x3 · att, entry by entry.
-/
import proofs.«120931_j11450382811433_2_alg».proof.Proof.Gen.KernelIdeal.Frame
import proofs.«120931_j11450382811433_2_alg».proof.Proof.LibColumn
import Idealize.ShloMosaic.Lib.Pipeline.Value
import Idealize.ShloMosaic.Lib.ValueIdx
import Idealize.ShloMosaic.Lib.ValueLayout

set_option maxRecDepth 16384

noncomputable section

namespace Cert.Scale

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz3 : (![0, 0, 0] : Fin 3 → Nat) = fun _ => 0 := funext fun a => by fin_cases a <;> rfl

/-- The output array as one function of the gates and the reshaped input: entry (b, c, p) is x3[b, c, p] · att[b, c, 0]. -/
def scaled (att : S16x64x1.Idx → EReal) (x3 : S16x64x65536.Idx → EReal) : S16x64x65536.Idx → EReal :=
  fun i => x3 i * att (ix3 (⟨(i 0).val, (i 0).isLt⟩ : Fin 16) (⟨(i 1).val, (i 1).isLt⟩ : Fin 64) (0 : Fin 1))

/-- The body's product at an entry of the block: the input block's entry times the gate of its row. -/
theorem pay_apply (x0 : Vec Ideal S1x64x1 .f32) (x1 : Vec Ideal S1x64x32768 .f32) (u : Fin 1) (i : Fin 64) (k : Fin 32768) :
    k2_pay1 (F := Ideal) x0 x1 (ix3 u i k) = x1 (ix3 (0 : Fin 1) i k) * x0 (ix3 (0 : Fin 1) i (0 : Fin 1)) := by
  unfold k2_pay1
  rw [shapeCast_ab_1ab_apply, mulf_apply, shapeCast_1ab_ab_apply, Cert.Lib.broadcastTo_a1_ab_apply, shapeCast_1ab_ab_apply]

/-- One entry of what a point writes back, over plain indices: at the block's entry (0, p, k), if the input block's entry
    is the array's entry `I` and the gate block's entry of row p is the gate array's entry `I0` of the same batch and
    channel, the body's product is the scaled array at `I`. -/
theorem point_eq (x0 : Vec Ideal S1x64x1 .f32) (x1 : Vec Ideal S1x64x32768 .f32) (att : S16x64x1.Idx → EReal)
    (x3 : S16x64x65536.Idx → EReal) (j : S1x64x32768.Idx) (p : Fin 64) (k : Fin 32768)
    (hp : (j 1).val = p.val) (hk : (j 2).val = k.val) (I : S16x64x65536.Idx) (I0 : S16x64x1.Idx)
    (h1 : x1 (ix3 (0 : Fin 1) p k) = x3 I) (h0 : x0 (ix3 (0 : Fin 1) p (0 : Fin 1)) = att I0)
    (hI0 : (I0 0).val = (I 0).val) (hI1 : (I0 1).val = (I 1).val) :
    k2_pay1 (F := Ideal) x0 x1 j = scaled att x3 I := by
  have hj : j = ix3 (0 : Fin 1) p k := by
    funext a
    apply Fin.ext
    match a with
    | ⟨0, _⟩ => show (j 0).val = 0; have h : (j 0).val < 1 := (j 0).isLt; omega
    | ⟨1, _⟩ => exact hp
    | ⟨2, _⟩ => exact hk
  rw [hj, pay_apply, h1, h0]
  unfold scaled
  refine congrArg (fun z => x3 I * att z) ?_
  funext a
  apply Fin.ext
  match a with
  | ⟨0, _⟩ => exact hI0
  | ⟨1, _⟩ => exact hI1
  | ⟨2, _⟩ => show (I0 2).val = 0; have h : (I0 2).val < 1 := (I0 2).isLt; omega

/-- The printed index maps, decided over the 32 grid points: the gate window sits at block (b, 0, 0), the input and the
    output windows at one and the same block (b, 0, h), with b ≤ 15 and h ≤ 1. -/
theorem idx_facts : ∀ t : Fin cfg2.N,
    win2_0.index t (0 : Fin 3) = win2_2.index t (0 : Fin 3) ∧ win2_0.index t (1 : Fin 3) = 0 ∧ win2_0.index t (2 : Fin 3) = 0
    ∧ win2_1.index t (0 : Fin 3) = win2_2.index t (0 : Fin 3) ∧ win2_1.index t (1 : Fin 3) = win2_2.index t (1 : Fin 3)
    ∧ win2_1.index t (2 : Fin 3) = win2_2.index t (2 : Fin 3)
    ∧ win2_2.index t (0 : Fin 3) ≤ 15 ∧ win2_2.index t (1 : Fin 3) = 0 ∧ win2_2.index t (2 : Fin 3) ≤ 1 :=
  (by decide +kernel : ∀ t : Fin grid2.N, _)

/-- Every block (b, 0, h) of the output is some point's. -/
theorem idx_onto : ∀ (q0 : Fin 16) (q2 : Fin 2), ∃ t : Fin cfg2.N, win2_2.index t = ![q0.val, 0, q2.val] :=
  (by decide +kernel : ∀ (q0 : Fin 16) (q2 : Fin 2), ∃ t : Fin grid2.N, win2_2.index t = ![q0.val, 0, q2.val])

/-- What point `t` writes back is its block of the scaled array. -/
theorem flushed_eq (c : Dev nD) (t : Fin cfg2.N) :
    (dat2 V c).flushed 2 t = ((cfg2.win 2).blk t).view.read (Elt Ideal) (scaled (V c main_v4) (V c main_v0)) := by
  show (cfg2.win 2).cut (grid2.coords t) ((dat2 V c).after 2 t) = _
  rw [after2_2]
  unfold out2_2
  rw [View.canon_unit_zero hz3]
  simp only [View.ld_unit_zero (S := S1x64x1) hz3, View.ld_unit_zero (S := S1x64x32768) hz3]
  obtain ⟨e0, e1, e2, e3, e4, e5, e6, e7, e8⟩ := idx_facts t
  funext j
  show k2_pay1 (F := Ideal) (iblk2 V c 0 t) (iblk2 V c 1 t) j
    = scaled (V c main_v4) (V c main_v0) (((cfg2.win 2).blk t).view.emb j)
  have hj0 : (j 0).val < 1 := (j 0).isLt
  have hj1 : (j 1).val < 64 := (j 1).isLt
  have hj2 : (j 2).val < 32768 := (j 2).isLt
  refine point_eq (iblk2 V c 0 t) (iblk2 V c 1 t) (V c main_v4) (V c main_v0) j ⟨(j 1).val, hj1⟩ ⟨(j 2).val, hj2⟩ rfl rfl
    (((cfg2.win 2).blk t).view.emb j)
    (((cfg2.win 0).blk t).view.emb (ix3 (0 : Fin 1) (⟨(j 1).val, hj1⟩ : Fin 64) (0 : Fin 1))) ?_ ?_ ?_ ?_
  · show V c main_v0 (((cfg2.win 1).blk t).view.emb (ix3 (0 : Fin 1) (⟨(j 1).val, hj1⟩ : Fin 64) (⟨(j 2).val, hj2⟩ : Fin 32768)))
      = V c main_v0 (((cfg2.win 2).blk t).view.emb j)
    refine congrArg (V c main_v0) ?_
    funext a
    apply Fin.ext
    match a with
    | ⟨0, _⟩ => show win2_1.index t (0 : Fin 3) * 1 + 1 * 0 = win2_2.index t (0 : Fin 3) * 1 + 1 * (j 0).val
                omega
    | ⟨1, _⟩ => show win2_1.index t (1 : Fin 3) * 64 + 1 * (j 1).val = win2_2.index t (1 : Fin 3) * 64 + 1 * (j 1).val
                omega
    | ⟨2, _⟩ => show win2_1.index t (2 : Fin 3) * 32768 + 1 * (j 2).val = win2_2.index t (2 : Fin 3) * 32768 + 1 * (j 2).val
                omega
  · rfl
  · show win2_0.index t (0 : Fin 3) * 1 + 1 * 0 = win2_2.index t (0 : Fin 3) * 1 + 1 * (j 0).val
    omega
  · show win2_0.index t (1 : Fin 3) * 64 + 1 * (j 1).val = win2_2.index t (1 : Fin 3) * 64 + 1 * (j 1).val
    omega

/-- An index of the output array is in point `t`'s block iff each coordinate is in the block's range on its axis. -/
theorem mem_blk (t : Fin cfg2.N) (i : S16x64x65536.Idx) :
    i ∈ ((cfg2.win 2).blk t).view.set ↔ ∀ a : Fin 3, win2_2.index t a * S1x64x32768.size a ≤ (i a).val
      ∧ (i a).val < win2_2.index t a * S1x64x32768.size a + S1x64x32768.size a := by
  show i ∈ ((View.whole main_v5).slice (win2_2.rect t)).set ↔ _
  rw [View.set_slice_whole, Rect.mem_set_unit]
  exact Iff.rfl

/-- The blocks tile the output: entry (b, c, p) lies in the block of the point with block index (b, 0, p / 32768). -/
theorem cover (i : S16x64x65536.Idx) :
    ∃ t : Fin cfg2.N, (cfg2.win 2).flush t = true ∧ i ∈ ((cfg2.win 2).blk t).view.set := by
  have hi0 : (i 0).val < 16 := (i 0).isLt
  have hi1 : (i 1).val < 64 := (i 1).isLt
  have hi2 : (i 2).val < 65536 := (i 2).isLt
  obtain ⟨t, ht⟩ := idx_onto ⟨(i 0).val, hi0⟩ ⟨(i 2).val / 32768, by omega⟩
  have q0 : win2_2.index t (0 : Fin 3) = (i 0).val := congrFun ht 0
  have q1 : win2_2.index t (1 : Fin 3) = 0 := congrFun ht 1
  have q2 : win2_2.index t (2 : Fin 3) = (i 2).val / 32768 := congrFun ht 2
  refine ⟨t, flush2_2 t, ?_⟩
  rw [mem_blk]
  intro a
  match a with
  | ⟨0, _⟩ => show win2_2.index t (0 : Fin 3) * 1 ≤ (i 0).val ∧ (i 0).val < win2_2.index t (0 : Fin 3) * 1 + 1
              omega
  | ⟨1, _⟩ => show win2_2.index t (1 : Fin 3) * 64 ≤ (i 1).val ∧ (i 1).val < win2_2.index t (1 : Fin 3) * 64 + 64
              omega
  | ⟨2, _⟩ => show win2_2.index t (2 : Fin 3) * 32768 ≤ (i 2).val ∧ (i 2).val < win2_2.index t (2 : Fin 3) * 32768 + 32768
              omega

/-- After the run the output array is the scaled array, whatever the region found in its three arrays. -/
theorem final (c : Dev nD) : (dat2 V c).arrAt 2 cfg2.N = scaled (V c main_v4) (V c main_v0) :=
  (dat2 V c).arrAt_eq_of_cover 2 (scaled (V c main_v4) (V c main_v0)) (fun t _ => flushed_eq V c t) cover

end Cert.Scale

end
-- ==== Proof.Spec.lean ====
/-
  Second-order channel attention over the extended reals, as one function of the input arrays.

  For one batch element, X : Fin 64 → Fin 65536 → EReal holds the 64 channels of an image flattened to
  65536 positions. Its covariance matrix is taken either in the centred form
      cov c d = (∑ m, (X c m - μ c) * (X d m - μ d)) / M,   μ c = (∑ m, X c m) / M,
  or from the first and second moments S1 c = ∑ m, X c m and S2 c d = ∑ m, X c m * X d m as
      cov c d = (S2 c d - S1 c * S1 d / M) / M.
  The matrix is divided by its trace, five steps of the Newton–Schulz iteration approximate the square
  root of the normalised matrix, the result is scaled back by the square root of the trace, its columns
  are averaged over the rows, and a two-layer perceptron (a rectifier, then the logistic function) turns
  the 64 averages into 64 gates, one per channel.

  Every float word is kept as the word it is printed with; only the zero word is read as 0.
-/
import Idealize.ShloMosaic.PureOps.Ideal
import Idealize.ShloMosaic.PureOps.Ideal.Laws

noncomputable section

namespace Cert.Spec

open Idealize.ShloMosaic

/-- A 64 × 64 matrix of extended reals. -/
abbrev Mat := Fin 64 → Fin 64 → EReal

/-- The word of 65536.0, the number of positions of one channel. -/
abbrev cM : EReal := Ideal.ofBits .f32 0x47800000#32
/-- The word of 3.0. -/
abbrev c3 : EReal := Ideal.ofBits .f32 0x40400000#32
/-- The word of 0.5. -/
abbrev cHalf : EReal := Ideal.ofBits .f32 0x3F000000#32
/-- The word of 64.0, the number of rows averaged over. -/
abbrev c64 : EReal := Ideal.ofBits .f32 0x42800000#32

/-- The matrix product, entry by entry a sum over the inner index. -/
def mm (A B : Mat) : Mat := fun i j => ∑ k : Fin 64, A i k * B k j

/-- Three times the identity matrix: the word of 3.0 times the 0/1 indicator of the diagonal. -/
def eye3 : Mat := fun i j => c3 * (if i = j then (1 : EReal) else 0)

/-- P ↦ 0.5 · (3·I − P), the correction factor of one Newton–Schulz step. -/
def half3m (P : Mat) : Mat := fun i j => cHalf * (eye3 i j - P i j)

/-- Five Newton–Schulz steps on cov / t, scaled back by √t. -/
def sqrtm (cov : Mat) (t : EReal) : Mat :=
  let A : Mat := fun i j => Ideal.div (cov i j) t
  let ZY0 : Mat := half3m A
  let Y0 : Mat := mm A ZY0
  let ZY1 : Mat := half3m (mm ZY0 Y0)
  let Y1 : Mat := mm Y0 ZY1
  let Z1 : Mat := mm ZY1 ZY0
  let ZY2 : Mat := half3m (mm Z1 Y1)
  let Y2 : Mat := mm Y1 ZY2
  let Z2 : Mat := mm ZY2 Z1
  let ZY3 : Mat := half3m (mm Z2 Y2)
  let Y3 : Mat := mm Y2 ZY3
  let Z3 : Mat := mm ZY3 Z2
  fun i j => cHalf * mm Y3 (fun p q => eye3 p q - mm Z3 Y3 p q) i j * Ideal.sqrt t

/-- The trace. -/
def tr (cov : Mat) : EReal := ∑ i : Fin 64, cov i i

/-- The mean of each column over the 64 rows. -/
def rowMean (S : Mat) : Fin 64 → EReal := fun d => Ideal.div (∑ c : Fin 64, S c d) c64

/-- First layer: a 64 → 8 linear map, a bias, the rectifier. -/
def hidden (v : Fin 64 → EReal) (w1 : Fin 8 → Fin 64 → EReal) (b1 : Fin 8 → EReal) : Fin 8 → EReal :=
  fun h => max ((∑ c : Fin 64, v c * w1 h c) + b1 h) 0

/-- Second layer: an 8 → 64 linear map, a bias, the logistic function. -/
def gate (hd : Fin 8 → EReal) (w2 : Fin 64 → Fin 8 → EReal) (b2 : Fin 64 → EReal) : Fin 64 → EReal :=
  fun c => Ideal.logistic ((∑ h : Fin 8, hd h * w2 c h) + b2 c)

/-- The 64 channel gates of a covariance matrix. -/
def att (cov : Mat) (w1 : Fin 8 → Fin 64 → EReal) (b1 : Fin 8 → EReal) (w2 : Fin 64 → Fin 8 → EReal)
    (b2 : Fin 64 → EReal) : Fin 64 → EReal :=
  gate (hidden (rowMean (sqrtm cov (tr cov))) w1 b1) w2 b2

/-- The first moment of each channel. -/
def mom1 (X : Fin 64 → Fin 65536 → EReal) : Fin 64 → EReal := fun c => ∑ m : Fin 65536, X c m

/-- The second moments of each pair of channels. -/
def mom2 (X : Fin 64 → Fin 65536 → EReal) : Mat := fun c d => ∑ m : Fin 65536, X c m * X d m

/-- The covariance from the two moments. -/
def covMom (s1 : Fin 64 → EReal) (s2 : Mat) : Mat :=
  fun c d => Ideal.div (s2 c d - Ideal.div (s1 c * s1 d) cM) cM

/-- The covariance in the centred form. -/
def covCen (X : Fin 64 → Fin 65536 → EReal) : Mat :=
  fun c d => Ideal.div (∑ m : Fin 65536, (X c m - Ideal.div (mom1 X c) cM) * (X d m - Ideal.div (mom1 X d) cM)) cM

end Cert.Spec

end
-- ==== Proof.GatesArray.lean ====
/-
  The second kernel: the 64 channel gates of every batch element.

  The grid has 16 points; point t reads row t of the first moments s1 : [16, 1, 64], block t of the second
  moments s2 : [16, 64, 64], the two weight matrices and the two bias rows whole, and writes the 64 gates of
  batch element t to block [t, :, 0] of the output : [16, 64, 1]. The 16 blocks tile the output, so after the
  run the output array holds, at entry (b, ch, 0), gate ch of the covariance matrix that the moments of batch
  element b give.
-/
import proofs.«120931_j11450382811433_2_alg».proof.Proof.Gen.KernelIdeal.Frame
import proofs.«120931_j11450382811433_2_alg».proof.Proof.Spec
import Idealize.ShloMosaic.Lib.Pipeline.Value
import Idealize.ShloMosaic.Lib.ValueIdx

set_option maxRecDepth 16384

noncomputable section

namespace Cert.GatesArray

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The output array as one function of the six input arrays: entry (b, ch, ·) is gate ch of the covariance matrix
    taken from the moments of batch element b. -/
def gates (s1 : S16x1x64.Idx → EReal) (s2 : S16x64x64.Idx → EReal) (w1 : S8x64.Idx → EReal) (b1 : S1x8.Idx → EReal)
    (w2 : S64x8.Idx → EReal) (b2 : S1x64.Idx → EReal) : S16x64x1.Idx → EReal :=
  fun i => Cert.Spec.att
    (Cert.Spec.covMom (fun ch => s1 (ix3 ⟨(i 0).val, (i 0).isLt⟩ 0 ch)) (fun p q => s2 (ix3 ⟨(i 0).val, (i 0).isLt⟩ p q)))
    (fun hh c' => w1 (ix2 hh c')) (fun hh => b1 (ix2 0 hh)) (fun c' hh => w2 (ix2 c' hh)) (fun c' => b2 (ix2 0 c'))
    ⟨(i 1).val, (i 1).isLt⟩

/-- What one point's body is assumed to leave in its output block: gate ch of the covariance matrix that the point's
    moment blocks give, under the point's weights and biases. -/
abbrev BlockGates : Prop :=
  ∀ (x0 : Vec Ideal S1x1x64 .f32) (x1 : Vec Ideal S1x64x64 .f32) (x2 : Vec Ideal S8x64 .f32) (x3 : Vec Ideal S1x8 .f32)
    (x4 : Vec Ideal S64x8 .f32) (x5 : Vec Ideal S1x64 .f32) (ch : Fin 64),
    out1_6 (F := Ideal) x0 x1 x2 x3 x4 x5 (ix3 0 ch 0)
      = Cert.Spec.att (Cert.Spec.covMom (fun i => x0 (ix3 0 0 i)) (fun i j => x1 (ix3 0 i j))) (fun hh c' => x2 (ix2 hh c'))
          (fun hh => x3 (ix2 0 hh)) (fun c' hh => x4 (ix2 c' hh)) (fun c' => x5 (ix2 0 c')) ch

/-- One entry of what a point writes back, over plain indices: if the point's moment blocks are the rows of batch element
    I 0 of the moment arrays, and its weight and bias blocks are the weight and bias arrays, then entry j of the output
    block, whose channel is the channel of I, is the gates array at I. -/
theorem point_eq (hout : BlockGates) (x0 : Vec Ideal S1x1x64 .f32) (x1 : Vec Ideal S1x64x64 .f32) (x2 : Vec Ideal S8x64 .f32)
    (x3 : Vec Ideal S1x8 .f32) (x4 : Vec Ideal S64x8 .f32) (x5 : Vec Ideal S1x64 .f32)
    (s1 : S16x1x64.Idx → EReal) (s2 : S16x64x64.Idx → EReal) (w1 : S8x64.Idx → EReal) (b1 : S1x8.Idx → EReal)
    (w2 : S64x8.Idx → EReal) (b2 : S1x64.Idx → EReal) (j : S1x64x1.Idx) (I : S16x64x1.Idx)
    (h0 : ∀ ch : Fin 64, x0 (ix3 0 0 ch) = s1 (ix3 ⟨(I 0).val, (I 0).isLt⟩ 0 ch))
    (h1 : ∀ p q : Fin 64, x1 (ix3 0 p q) = s2 (ix3 ⟨(I 0).val, (I 0).isLt⟩ p q))
    (h2 : ∀ y, x2 y = w1 y) (h3 : ∀ y, x3 y = b1 y) (h4 : ∀ y, x4 y = w2 y) (h5 : ∀ y, x5 y = b2 y)
    (hj : (j 1).val = (I 1).val) :
    out1_6 (F := Ideal) x0 x1 x2 x3 x4 x5 j = gates s1 s2 w1 b1 w2 b2 I := by
  have ej : j = ix3 (0 : Fin 1) (⟨(I 1).val, (I 1).isLt⟩ : Fin 64) (0 : Fin 1) := by
    funext a
    apply Fin.ext
    match a with
    | ⟨0, _⟩ => show (j 0).val = 0
                have hlt : (j 0).val < 1 := (j 0).isLt
                omega
    | ⟨1, _⟩ => exact hj
    | ⟨2, _⟩ => show (j 2).val = 0
                have hlt : (j 2).val < 1 := (j 2).isLt
                omega
  have e0 : (fun i : Fin 64 => x0 (ix3 0 0 i)) = fun ch => s1 (ix3 ⟨(I 0).val, (I 0).isLt⟩ 0 ch) := funext h0
  have e1 : (fun i j : Fin 64 => x1 (ix3 0 i j)) = fun p q => s2 (ix3 ⟨(I 0).val, (I 0).isLt⟩ p q) :=
    funext fun p => funext fun q => h1 p q
  have e2 : (fun (hh : Fin 8) (c' : Fin 64) => x2 (ix2 hh c')) = fun hh c' => w1 (ix2 hh c') :=
    funext fun hh => funext fun c' => h2 _
  have e3 : (fun hh : Fin 8 => x3 (ix2 0 hh)) = fun hh => b1 (ix2 0 hh) := funext fun hh => h3 _
  have e4 : (fun (c' : Fin 64) (hh : Fin 8) => x4 (ix2 c' hh)) = fun c' hh => w2 (ix2 c' hh) :=
    funext fun c' => funext fun hh => h4 _
  have e5 : (fun c' : Fin 64 => x5 (ix2 0 c')) = fun c' => b2 (ix2 0 c') := funext fun c' => h5 _
  rw [ej, hout, e0, e1, e2, e3, e4, e5]
  rfl

/-- The index maps over the 16 grid points: the two moment windows sit at block (t, 0, 0) like the output window, the
    weight and bias windows at block (0, 0), and the output's block index is (b, 0, 0) with b ≤ 15. -/
theorem idx_facts : ∀ t : Fin cfg1.N,
    win1_0.index t (0 : Fin 3) = win1_6.index t (0 : Fin 3) ∧ win1_0.index t (1 : Fin 3) = 0 ∧ win1_0.index t (2 : Fin 3) = 0
    ∧ win1_1.index t (0 : Fin 3) = win1_6.index t (0 : Fin 3) ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) ≤ 15 ∧ win1_6.index t (1 : Fin 3) = 0 ∧ win1_6.index t (2 : Fin 3) = 0 :=
  (by decide +kernel : ∀ t : Fin grid1.N, _)

/-- Every block (b, 0, 0) of the output is some point's. -/
theorem idx_onto : ∀ q0 : Fin 16, ∃ t : Fin cfg1.N, win1_6.index t = ![q0.val, 0, 0] :=
  (by decide +kernel : ∀ q0 : Fin 16, ∃ t : Fin grid1.N, win1_6.index t = ![q0.val, 0, 0])

/-- What point t writes back is its block of the gates array. -/
theorem flushed_eq (hout : BlockGates) (c : Dev nD) (t : Fin cfg1.N) :
    (dat1 V c).flushed 6 t = ((cfg1.win 6).blk t).view.read (Elt Ideal)
      (gates (V c main_v1_0) (V c main_v1_1) (V c main_arg1) (V c main_v2) (V c main_arg3) (V c main_v3)) := by
  show (cfg1.win 6).cut (grid1.coords t) ((dat1 V c).after 6 t) = _
  rw [after1_6]
  obtain ⟨a0, a1, a2, a3, a4, a5, a6, a7, a8, a9, a10, a11, a12, a13, a14, a15, a16⟩ := idx_facts t
  funext j
  show out1_6 (F := Ideal) (iblk1 V c 0 t) (iblk1 V c 1 t) (iblk1 V c 2 t) (iblk1 V c 3 t) (iblk1 V c 4 t) (iblk1 V c 5 t) j
    = gates (V c main_v1_0) (V c main_v1_1) (V c main_arg1) (V c main_v2) (V c main_arg3) (V c main_v3)
        (((cfg1.win 6).blk t).view.emb j)
  refine point_eq hout (iblk1 V c 0 t) (iblk1 V c 1 t) (iblk1 V c 2 t) (iblk1 V c 3 t) (iblk1 V c 4 t) (iblk1 V c 5 t)
    (V c main_v1_0) (V c main_v1_1) (V c main_arg1) (V c main_v2) (V c main_arg3) (V c main_v3) j
    (((cfg1.win 6).blk t).view.emb j) ?_ ?_ ?_ ?_ ?_ ?_ ?_
  · intro ch
    show V c main_v1_0 (((cfg1.win 0).blk t).view.emb (ix3 (0 : Fin 1) (0 : Fin 1) ch)) = _
    refine congrArg (V c main_v1_0) ?_
    funext a
    apply Fin.ext
    match a with
    | ⟨0, _⟩ => show win1_0.index t (0 : Fin 3) * 1 + 1 * 0 = win1_6.index t (0 : Fin 3) * 1 + 1 * (j 0).val
                have hlt : (j 0).val < 1 := (j 0).isLt
                omega
    | ⟨1, _⟩ => show win1_0.index t (1 : Fin 3) * 1 + 1 * 0 = 0
                omega
    | ⟨2, _⟩ => show win1_0.index t (2 : Fin 3) * 64 + 1 * ch.val = ch.val
                omega
  · intro p q
    show V c main_v1_1 (((cfg1.win 1).blk t).view.emb (ix3 (0 : Fin 1) p q)) = _
    refine congrArg (V c main_v1_1) ?_
    funext a
    apply Fin.ext
    match a with
    | ⟨0, _⟩ => show win1_1.index t (0 : Fin 3) * 1 + 1 * 0 = win1_6.index t (0 : Fin 3) * 1 + 1 * (j 0).val
                have hlt : (j 0).val < 1 := (j 0).isLt
                omega
    | ⟨1, _⟩ => show win1_1.index t (1 : Fin 3) * 64 + 1 * p.val = p.val
                omega
    | ⟨2, _⟩ => show win1_1.index t (2 : Fin 3) * 64 + 1 * q.val = q.val
                omega
  · intro y
    show V c main_arg1 (((cfg1.win 2).blk t).view.emb y) = V c main_arg1 y
    refine congrArg (V c main_arg1) ?_
    funext a
    apply Fin.ext
    match a with
    | ⟨0, _⟩ => show win1_2.index t (0 : Fin 2) * 8 + 1 * (y 0).val = (y 0).val
                omega
    | ⟨1, _⟩ => show win1_2.index t (1 : Fin 2) * 64 + 1 * (y 1).val = (y 1).val
                omega
  · intro y
    show V c main_v2 (((cfg1.win 3).blk t).view.emb y) = V c main_v2 y
    refine congrArg (V c main_v2) ?_
    funext a
    apply Fin.ext
    match a with
    | ⟨0, _⟩ => show win1_3.index t (0 : Fin 2) * 1 + 1 * (y 0).val = (y 0).val
                omega
    | ⟨1, _⟩ => show win1_3.index t (1 : Fin 2) * 8 + 1 * (y 1).val = (y 1).val
                omega
  · intro y
    show V c main_arg3 (((cfg1.win 4).blk t).view.emb y) = V c main_arg3 y
    refine congrArg (V c main_arg3) ?_
    funext a
    apply Fin.ext
    match a with
    | ⟨0, _⟩ => show win1_4.index t (0 : Fin 2) * 64 + 1 * (y 0).val = (y 0).val
                omega
    | ⟨1, _⟩ => show win1_4.index t (1 : Fin 2) * 8 + 1 * (y 1).val = (y 1).val
                omega
  · intro y
    show V c main_v3 (((cfg1.win 5).blk t).view.emb y) = V c main_v3 y
    refine congrArg (V c main_v3) ?_
    funext a
    apply Fin.ext
    match a with
    | ⟨0, _⟩ => show win1_5.index t (0 : Fin 2) * 1 + 1 * (y 0).val = (y 0).val
                omega
    | ⟨1, _⟩ => show win1_5.index t (1 : Fin 2) * 64 + 1 * (y 1).val = (y 1).val
                omega
  · show (j 1).val = win1_6.index t (1 : Fin 3) * 64 + 1 * (j 1).val
    omega

/-- An index of the output array is in point t's block iff each coordinate is in the block's range on its axis. -/
theorem mem_blk (t : Fin cfg1.N) (i : S16x64x1.Idx) :
    i ∈ ((cfg1.win 6).blk t).view.set ↔ ∀ a : Fin 3, win1_6.index t a * S1x64x1.size a ≤ (i a).val
      ∧ (i a).val < win1_6.index t a * S1x64x1.size a + S1x64x1.size a := by
  show i ∈ ((View.whole main_v4).slice (win1_6.rect t)).set ↔ _
  rw [View.set_slice_whole, Rect.mem_set_unit]
  exact Iff.rfl

/-- The blocks tile the output: entry (b, ch, 0) lies in the block of the point with block index (b, 0, 0). -/
theorem cover (i : S16x64x1.Idx) :
    ∃ t : Fin cfg1.N, (cfg1.win 6).flush t = true ∧ i ∈ ((cfg1.win 6).blk t).view.set := by
  have hi0 : (i 0).val < 16 := (i 0).isLt
  have hi1 : (i 1).val < 64 := (i 1).isLt
  have hi2 : (i 2).val < 1 := (i 2).isLt
  obtain ⟨t, ht⟩ := idx_onto ⟨(i 0).val, hi0⟩
  have q0 : win1_6.index t (0 : Fin 3) = (i 0).val := congrFun ht 0
  have q1 : win1_6.index t (1 : Fin 3) = 0 := congrFun ht 1
  have q2 : win1_6.index t (2 : Fin 3) = 0 := congrFun ht 2
  refine ⟨t, flush1_6 t, ?_⟩
  rw [mem_blk]
  intro a
  match a with
  | ⟨0, _⟩ => show win1_6.index t (0 : Fin 3) * 1 ≤ (i 0).val ∧ (i 0).val < win1_6.index t (0 : Fin 3) * 1 + 1
              omega
  | ⟨1, _⟩ => show win1_6.index t (1 : Fin 3) * 64 ≤ (i 1).val ∧ (i 1).val < win1_6.index t (1 : Fin 3) * 64 + 64
              omega
  | ⟨2, _⟩ => show win1_6.index t (2 : Fin 3) * 1 ≤ (i 2).val ∧ (i 2).val < win1_6.index t (2 : Fin 3) * 1 + 1
              omega

/-- After the run the output array is the gates array, whatever the region found in its seven arrays. -/
theorem final (hout : BlockGates) (c : Dev nD) :
    (dat1 V c).arrAt 6 cfg1.N
      = gates (V c main_v1_0) (V c main_v1_1) (V c main_arg1) (V c main_v2) (V c main_arg3) (V c main_v3) :=
  (dat1 V c).arrAt_eq_of_cover 6
    (gates (V c main_v1_0) (V c main_v1_1) (V c main_arg1) (V c main_v2) (V c main_arg3) (V c main_v3))
    (fun t _ => flushed_eq V hout c t) cover

end Cert.GatesArray

end
-- ==== Proof.GateValue.lean ====
/-
  The gates the middle kernel leaves in its output block.

  The body reads two moment blocks of one batch element, s1 c = ∑ₘ X c m (a [1,1,64] block) and
  s2 c d = ∑ₘ X c m · X d m (a [1,64,64] block), and the four parameter arrays of a two-layer perceptron.
  It forms the covariance (s2 − s1 s1ᵀ / M) / M, divides it by its trace, runs five Newton–Schulz steps,
  scales by the square root of the trace, averages each column over the rows, and applies the perceptron
  (a rectifier, then the logistic function). Read over the extended reals every operation is exact, a matrix
  product is a plain sum of products and a reduction a plain sum, so the value stored at channel c is the
  specification's gate of the covariance built from the two moment blocks.

  The file goes bottom-up: layout operations read at coordinates, one lemma for each kind of matrix
  product, then one lemma per stage of the body, each saying which matrix of the specification the stage
  holds.
-/
import proofs.«120931_j11450382811433_2_alg».proof.Proof.Gen.KernelIdeal.Frame
import proofs.«120931_j11450382811433_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.GateValue

open Idealize.ShloMosaic Idealize.ShloMosaic.ValueIdx Cert.KernelIdeal Cert.KernelIdeal.Gen

/-! ## Layout operations at coordinates -/

section Layout
variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` row cast to the column `[a, 1]` reads, at `(i, u)`, the operand at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- A `[1, 1, a]` block cast to the vector `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a shape cast over its indices is the sum of the operand over its own: a shape cast is a
    bijection of the index sets. -/
theorem sum_shapeCast {s t : Shape} {M : Type} [AddCommMonoid M] (x : s.Idx → M) (h : s.ShapeCasts t) :
    ∑ j : t.Idx, shapeCast t x h j = ∑ k : s.Idx, x k :=
  Equiv.sum_comp (Shape.reshapeEquiv h) x

end Layout

/-! ## The three kinds of matrix product

For each of the three dimension records: where the two operand indices sit, coordinate by coordinate, and then
the product read at an output index as the sum over the one contracted coordinate. -/

/-- A 64 × 64 array read as a matrix of the specification. -/
def toMat (A : FVec Ideal S64x64 .f32) : Spec.Mat := fun i j => A (ix2 i j)

theorem toMat_apply (A : FVec Ideal S64x64 .f32) (i j : Fin 64) : toMat A i j = A (ix2 i j) := rfl

theorem sq_lhs_0 (i : S64x64.Idx) (q : dot_S64x64_S64x64_S64x64_1_0_0_1_n_n.contr.Idx) :
    (dot_S64x64_S64x64_S64x64_1_0_0_1_n_n.lhsIdx i q 0).val = (i 0).val := by
  unfold DotDims.lhsIdx
  rw [dif_neg (show ¬(0 : Fin S64x64.rank) ∈ dot_S64x64_S64x64_S64x64_1_0_0_1_n_n.lhsBatch by decide),
    dif_pos (show (0 : Fin S64x64.rank) ∈ dot_S64x64_S64x64_S64x64_1_0_0_1_n_n.lhsNonContracting by decide)]
  rfl
theorem sq_lhs_1 (i : S64x64.Idx) (q : dot_S64x64_S64x64_S64x64_1_0_0_1_n_n.contr.Idx) :
    (dot_S64x64_S64x64_S64x64_1_0_0_1_n_n.lhsIdx i q 1).val = (q ⟨0, by decide⟩).val :=
  dot_S64x64_S64x64_S64x64_1_0_0_1_n_n.lhsIdx_val_of_single rfl i q
theorem sq_rhs_1 (i : S64x64.Idx) (q : dot_S64x64_S64x64_S64x64_1_0_0_1_n_n.contr.Idx) :
    (dot_S64x64_S64x64_S64x64_1_0_0_1_n_n.rhsIdx i q 1).val = (i 1).val := by
  unfold DotDims.rhsIdx
  rw [dif_neg (show ¬(1 : Fin S64x64.rank) ∈ dot_S64x64_S64x64_S64x64_1_0_0_1_n_n.rhsBatch by decide),
    dif_pos (show (1 : Fin S64x64.rank) ∈ dot_S64x64_S64x64_S64x64_1_0_0_1_n_n.rhsNonContracting by decide)]
  rfl
theorem sq_rhs_0 (i : S64x64.Idx) (q : dot_S64x64_S64x64_S64x64_1_0_0_1_n_n.contr.Idx) :
    (dot_S64x64_S64x64_S64x64_1_0_0_1_n_n.rhsIdx i q 0).val = (q ⟨0, by decide⟩).val :=
  dot_S64x64_S64x64_S64x64_1_0_0_1_n_n.rhsIdx_val_of_single rfl i q

/-- The square product: rows of the left operand against columns of the right one, accumulated into zero, is
    the plain matrix product. -/
theorem matmul_sq_apply (A B : FVec Ideal S64x64 .f32) (i j : Fin 64) :
    matmul dot_S64x64_S64x64_S64x64_1_0_0_1_n_n none A B (constant S64x64 .f32 0x00000000#32) (ix2 i j)
      = ∑ k : Fin 64, A (ix2 i k) * B (ix2 k j) := by
  show FloatOps.matmul dot_S64x64_S64x64_S64x64_1_0_0_1_n_n none A B (constant S64x64 .f32 0x00000000#32) (ix2 i j) = _
  rw [Ideal.matmul_constant_zero_apply, ← Equiv.sum_comp (contrEquiv1 dot_S64x64_S64x64_S64x64_1_0_0_1_n_n 64 rfl rfl).symm]
  refine Finset.sum_congr rfl fun k _ => ?_
  have hk := contrEquiv1_symm_val dot_S64x64_S64x64_S64x64_1_0_0_1_n_n 64 rfl rfl k
  have el : dot_S64x64_S64x64_S64x64_1_0_0_1_n_n.lhsIdx (ix2 i j) ((contrEquiv1 dot_S64x64_S64x64_S64x64_1_0_0_1_n_n 64 rfl rfl).symm k) = (ix2 i k) :=
    funext fun a => Fin.ext (by
      match a with
      | ⟨0, _⟩ => exact sq_lhs_0 _ _
      | ⟨1, _⟩ => exact (sq_lhs_1 _ _).trans hk)
  have er : dot_S64x64_S64x64_S64x64_1_0_0_1_n_n.rhsIdx (ix2 i j) ((contrEquiv1 dot_S64x64_S64x64_S64x64_1_0_0_1_n_n 64 rfl rfl).symm k) = (ix2 k j) :=
    funext fun a => Fin.ext (by
      match a with
      | ⟨0, _⟩ => exact (sq_rhs_0 _ _).trans hk
      | ⟨1, _⟩ => exact sq_rhs_1 _ _)
  rw [el, er]

/-- The same as an equation of matrices. -/
theorem toMat_matmul (A B : FVec Ideal S64x64 .f32) :
    toMat (matmul dot_S64x64_S64x64_S64x64_1_0_0_1_n_n none A B (constant S64x64 .f32 0x00000000#32))
      = Spec.mm (toMat A) (toMat B) :=
  funext fun i => funext fun j => matmul_sq_apply A B i j

theorem w1_lhs_0 (i : S1x8.Idx) (q : dot_S1x64_S8x64_S1x8_1_1_0_0_n_n.contr.Idx) :
    (dot_S1x64_S8x64_S1x8_1_1_0_0_n_n.lhsIdx i q 0).val = (i 0).val := by
  unfold DotDims.lhsIdx
  rw [dif_neg (show ¬(0 : Fin S1x64.rank) ∈ dot_S1x64_S8x64_S1x8_1_1_0_0_n_n.lhsBatch by decide),
    dif_pos (show (0 : Fin S1x64.rank) ∈ dot_S1x64_S8x64_S1x8_1_1_0_0_n_n.lhsNonContracting by decide)]
  rfl
theorem w1_lhs_1 (i : S1x8.Idx) (q : dot_S1x64_S8x64_S1x8_1_1_0_0_n_n.contr.Idx) :
    (dot_S1x64_S8x64_S1x8_1_1_0_0_n_n.lhsIdx i q 1).val = (q ⟨0, by decide⟩).val :=
  dot_S1x64_S8x64_S1x8_1_1_0_0_n_n.lhsIdx_val_of_single rfl i q
theorem w1_rhs_0 (i : S1x8.Idx) (q : dot_S1x64_S8x64_S1x8_1_1_0_0_n_n.contr.Idx) :
    (dot_S1x64_S8x64_S1x8_1_1_0_0_n_n.rhsIdx i q 0).val = (i 1).val := by
  unfold DotDims.rhsIdx
  rw [dif_neg (show ¬(0 : Fin S8x64.rank) ∈ dot_S1x64_S8x64_S1x8_1_1_0_0_n_n.rhsBatch by decide),
    dif_pos (show (0 : Fin S8x64.rank) ∈ dot_S1x64_S8x64_S1x8_1_1_0_0_n_n.rhsNonContracting by decide)]
  rfl
theorem w1_rhs_1 (i : S1x8.Idx) (q : dot_S1x64_S8x64_S1x8_1_1_0_0_n_n.contr.Idx) :
    (dot_S1x64_S8x64_S1x8_1_1_0_0_n_n.rhsIdx i q 1).val = (q ⟨0, by decide⟩).val :=
  dot_S1x64_S8x64_S1x8_1_1_0_0_n_n.rhsIdx_val_of_single rfl i q

/-- The first layer's product: a row of 64 against the 8 rows of the weights, both contracted on their second
    axis. -/
theorem matmul_w1_apply (A : FVec Ideal S1x64 .f32) (B : FVec Ideal S8x64 .f32) (u : Fin 1) (hh : Fin 8) :
    matmul dot_S1x64_S8x64_S1x8_1_1_0_0_n_n none A B (constant S1x8 .f32 0x00000000#32) (ix2 u hh)
      = ∑ k : Fin 64, A (ix2 u k) * B (ix2 hh k) := by
  show FloatOps.matmul dot_S1x64_S8x64_S1x8_1_1_0_0_n_n none A B (constant S1x8 .f32 0x00000000#32) (ix2 u hh) = _
  rw [Ideal.matmul_constant_zero_apply, ← Equiv.sum_comp (contrEquiv1 dot_S1x64_S8x64_S1x8_1_1_0_0_n_n 64 rfl rfl).symm]
  refine Finset.sum_congr rfl fun k _ => ?_
  have hk := contrEquiv1_symm_val dot_S1x64_S8x64_S1x8_1_1_0_0_n_n 64 rfl rfl k
  have el : dot_S1x64_S8x64_S1x8_1_1_0_0_n_n.lhsIdx (ix2 u hh) ((contrEquiv1 dot_S1x64_S8x64_S1x8_1_1_0_0_n_n 64 rfl rfl).symm k) = (ix2 u k) :=
    funext fun a => Fin.ext (by
      match a with
      | ⟨0, _⟩ => exact w1_lhs_0 _ _
      | ⟨1, _⟩ => exact (w1_lhs_1 _ _).trans hk)
  have er : dot_S1x64_S8x64_S1x8_1_1_0_0_n_n.rhsIdx (ix2 u hh) ((contrEquiv1 dot_S1x64_S8x64_S1x8_1_1_0_0_n_n 64 rfl rfl).symm k) = (ix2 hh k) :=
    funext fun a => Fin.ext (by
      match a with
      | ⟨0, _⟩ => exact w1_rhs_0 _ _
      | ⟨1, _⟩ => exact (w1_rhs_1 _ _).trans hk)
  rw [el, er]

theorem w2_lhs_0 (i : S1x64.Idx) (q : dot_S1x8_S64x8_S1x64_1_1_0_0_n_n.contr.Idx) :
    (dot_S1x8_S64x8_S1x64_1_1_0_0_n_n.lhsIdx i q 0).val = (i 0).val := by
  unfold DotDims.lhsIdx
  rw [dif_neg (show ¬(0 : Fin S1x8.rank) ∈ dot_S1x8_S64x8_S1x64_1_1_0_0_n_n.lhsBatch by decide),
    dif_pos (show (0 : Fin S1x8.rank) ∈ dot_S1x8_S64x8_S1x64_1_1_0_0_n_n.lhsNonContracting by decide)]
  rfl
theorem w2_lhs_1 (i : S1x64.Idx) (q : dot_S1x8_S64x8_S1x64_1_1_0_0_n_n.contr.Idx) :
    (dot_S1x8_S64x8_S1x64_1_1_0_0_n_n.lhsIdx i q 1).val = (q ⟨0, by decide⟩).val :=
  dot_S1x8_S64x8_S1x64_1_1_0_0_n_n.lhsIdx_val_of_single rfl i q
theorem w2_rhs_0 (i : S1x64.Idx) (q : dot_S1x8_S64x8_S1x64_1_1_0_0_n_n.contr.Idx) :
    (dot_S1x8_S64x8_S1x64_1_1_0_0_n_n.rhsIdx i q 0).val = (i 1).val := by
  unfold DotDims.rhsIdx
  rw [dif_neg (show ¬(0 : Fin S64x8.rank) ∈ dot_S1x8_S64x8_S1x64_1_1_0_0_n_n.rhsBatch by decide),
    dif_pos (show (0 : Fin S64x8.rank) ∈ dot_S1x8_S64x8_S1x64_1_1_0_0_n_n.rhsNonContracting by decide)]
  rfl
theorem w2_rhs_1 (i : S1x64.Idx) (q : dot_S1x8_S64x8_S1x64_1_1_0_0_n_n.contr.Idx) :
    (dot_S1x8_S64x8_S1x64_1_1_0_0_n_n.rhsIdx i q 1).val = (q ⟨0, by decide⟩).val :=
  dot_S1x8_S64x8_S1x64_1_1_0_0_n_n.rhsIdx_val_of_single rfl i q

/-- The second layer's product: a row of 8 against the 64 rows of the weights, both contracted on their second
    axis. -/
theorem matmul_w2_apply (A : FVec Ideal S1x8 .f32) (B : FVec Ideal S64x8 .f32) (u : Fin 1) (c : Fin 64) :
    matmul dot_S1x8_S64x8_S1x64_1_1_0_0_n_n none A B (constant S1x64 .f32 0x00000000#32) (ix2 u c)
      = ∑ k : Fin 8, A (ix2 u k) * B (ix2 c k) := by
  show FloatOps.matmul dot_S1x8_S64x8_S1x64_1_1_0_0_n_n none A B (constant S1x64 .f32 0x00000000#32) (ix2 u c) = _
  rw [Ideal.matmul_constant_zero_apply, ← Equiv.sum_comp (contrEquiv1 dot_S1x8_S64x8_S1x64_1_1_0_0_n_n 8 rfl rfl).symm]
  refine Finset.sum_congr rfl fun k _ => ?_
  have hk := contrEquiv1_symm_val dot_S1x8_S64x8_S1x64_1_1_0_0_n_n 8 rfl rfl k
  have el : dot_S1x8_S64x8_S1x64_1_1_0_0_n_n.lhsIdx (ix2 u c) ((contrEquiv1 dot_S1x8_S64x8_S1x64_1_1_0_0_n_n 8 rfl rfl).symm k) = (ix2 u k) :=
    funext fun a => Fin.ext (by
      match a with
      | ⟨0, _⟩ => exact w2_lhs_0 _ _
      | ⟨1, _⟩ => exact (w2_lhs_1 _ _).trans hk)
  have er : dot_S1x8_S64x8_S1x64_1_1_0_0_n_n.rhsIdx (ix2 u c) ((contrEquiv1 dot_S1x8_S64x8_S1x64_1_1_0_0_n_n 8 rfl rfl).symm k) = (ix2 c k) :=
    funext fun a => Fin.ext (by
      match a with
      | ⟨0, _⟩ => exact w2_rhs_0 _ _
      | ⟨1, _⟩ => exact (w2_rhs_1 _ _).trans hk)
  rw [el, er]

/-! ## The stages of the body, up to the second Newton–Schulz step -/

/-- The covariance matrix of the specification, from the two moment blocks. -/
abbrev covOf (x0 : Vec Ideal S1x1x64 .f32) (x1 : Vec Ideal S1x64x64 .f32) : Spec.Mat :=
  Spec.covMom (fun i => x0 (ix3 0 0 i)) (fun i j => x1 (ix3 0 i j))

/-- The 0/1 indicator of the diagonal: two coordinate counters compared, the bit widened and converted. Two
    coordinates below 64 are equal exactly when their 32-bit words are. -/
theorem pay3_apply (i j : Fin 64) : k1_pay3 (F := Ideal) (ix2 i j) = if i = j then (1 : EReal) else 0 := by
  unfold k1_pay3
  show FloatOps.sitofp .f32 ((IntOp.cmpi .eq (iota .tc S64x64 32 [0] iota_S64x64_d0_w32 (ix2 i j))
    (iota .tc S64x64 32 [1] iota_S64x64_d1_w32 (ix2 i j))).setWidth 32) = _
  rw [iota_single_apply, iota_single_apply]
  show (((((IntOp.cmpi .eq (BitVec.ofNat 32 i.val) (BitVec.ofNat 32 j.val)).setWidth 32).toInt : ℝ)) : EReal) = _
  by_cases h : i = j
  · subst h
    simp [IntOp.cmpi]
  · have hne : BitVec.ofNat 32 i.val ≠ BitVec.ofNat 32 j.val := by
      intro e
      apply h
      apply Fin.ext
      have e2 := congrArg BitVec.toNat e
      simp only [BitVec.toNat_ofNat] at e2
      have := i.isLt
      have := j.isLt
      omega
    have hb : (BitVec.ofNat 32 i.val == BitVec.ofNat 32 j.val) = false := beq_eq_false_iff_ne.mpr hne
    simp [IntOp.cmpi, hb, h]

/-- Three times the identity. -/
theorem pay4_mat : toMat (k1_pay4 (F := Ideal)) = Spec.eye3 := by
  funext i j
  unfold k1_pay4
  show Ideal.ofBits .f32 0x40400000#32 * k1_pay3 (F := Ideal) (ix2 i j) = _
  rw [pay3_apply]
  rfl

section Blocks
variable (x0 : Vec Ideal S1x1x64 .f32) (x1 : Vec Ideal S1x64x64 .f32)

/-- The covariance from the two moment blocks: the first moments as a column and as a row, their outer product
    over M, subtracted from the second moments, over M. -/
theorem pay2_apply (i j : Fin 64) : k1_pay2 (F := Ideal) x0 x1 (ix2 i j) = covOf x0 x1 i j := by
  unfold k1_pay2
  show Ideal.div (shapeCast S64x64 x1 _ (ix2 i j)
      - Ideal.div (broadcastTo S64x64 (shapeCast S64x1 (shapeCast S64 x0 _) _) _ (ix2 i j)
          * broadcastTo S64x64 (shapeCast S1x64 (shapeCast S64 x0 _) _) _ (ix2 i j))
        (Ideal.ofBits .f32 0x47800000#32)) (Ideal.ofBits .f32 0x47800000#32) = _
  rw [shapeCast_1ab_ab_apply, broadcastTo_a1_ab_apply, broadcastTo_1b_ab_apply, shapeCast_a_a1_apply, shapeCast_a_1a_apply,
    shapeCast_11a_a_apply, shapeCast_11a_a_apply]
  rfl

theorem pay2_mat : toMat (k1_pay2 (F := Ideal) x0 x1) = covOf x0 x1 :=
  funext fun i => funext fun j => pay2_apply x0 x1 i j

/-- The trace: the covariance times the diagonal indicator, summed over every entry; only the diagonal entries
    survive. -/
theorem pay5_eq : k1_pay5 (F := Ideal) x0 x1 = Spec.tr (covOf x0 x1) := by
  unfold k1_pay5
  show shapeCast S1x1x1 (multiReduction (F := Ideal) .add [1, 2] S1
      (shapeCast S1x64x64 (mulf (k1_pay2 (F := Ideal) x0 x1) (k1_pay3 (F := Ideal))) _) 0x00000000#32 _ _ _) _
      (fun a => ⟨(![0, 0, 0] : Fin 3 → ℕ) a, _⟩) = _
  refine (shapeCast_apply _ _ _ (ix1 (0 : Fin 1)) ?_).trans ?_
  · rw [Shape.rowMajor_val_three, Shape.rowMajor_val_one]; rfl
  refine (Ideal.multiReduction_add_total _ _ _ (by decide) _ _ _).trans ?_
  rw [sum_shapeCast, sum_idx2]
  unfold Spec.tr
  refine Finset.sum_congr rfl fun a _ => ?_
  simp only [mulf_apply, pay3_apply, pay2_apply x0 x1, mul_ite, mul_one, mul_zero, Finset.sum_ite_eq, Finset.mem_univ, if_true]

/-- The covariance over its trace. -/
theorem pay6_mat : toMat (k1_pay6 (F := Ideal) x0 x1)
    = fun i j => Ideal.div (covOf x0 x1 i j) (Spec.tr (covOf x0 x1)) := by
  funext i j
  unfold k1_pay6
  show Ideal.div (k1_pay2 (F := Ideal) x0 x1 (ix2 i j)) (k1_pay5 (F := Ideal) x0 x1) = _
  rw [pay2_apply, pay5_eq]

end Blocks

/-- One half of three times the identity minus a matrix: the correction factor of a Newton–Schulz step. -/
theorem half3_mat (E P : FVec Ideal S64x64 .f32) (hE : toMat E = Spec.eye3) :
    toMat (mulf (broadcast S64x64 (Scalar.ofBits (F := Ideal) .f32 0x3F000000#32)) (subf E P)) = Spec.half3m (toMat P) := by
  funext i j
  show Ideal.ofBits .f32 0x3F000000#32 * (toMat E i j - toMat P i j) = _
  rw [hE]
  rfl

section Steps
variable (x0 : Vec Ideal S1x1x64 .f32) (x1 : Vec Ideal S1x64x64 .f32)

theorem pay7_mat : toMat (k1_pay7 (F := Ideal) x0 x1) = Spec.half3m (toMat (k1_pay6 (F := Ideal) x0 x1)) := by
  unfold k1_pay7
  exact half3_mat _ _ pay4_mat

theorem pay8_mat : toMat (k1_pay8 (F := Ideal) x0 x1)
    = Spec.mm (toMat (k1_pay6 (F := Ideal) x0 x1)) (toMat (k1_pay7 (F := Ideal) x0 x1)) := by
  unfold k1_pay8
  exact toMat_matmul _ _

theorem pay9_mat : toMat (k1_pay9 (F := Ideal) x0 x1)
    = Spec.half3m (Spec.mm (toMat (k1_pay7 (F := Ideal) x0 x1)) (toMat (k1_pay8 (F := Ideal) x0 x1))) := by
  unfold k1_pay9
  exact (half3_mat _ _ pay4_mat).trans (congrArg Spec.half3m (toMat_matmul _ _))

theorem pay10_mat : toMat (k1_pay10 (F := Ideal) x0 x1)
    = Spec.mm (toMat (k1_pay8 (F := Ideal) x0 x1)) (toMat (k1_pay9 (F := Ideal) x0 x1)) := by
  unfold k1_pay10
  exact toMat_matmul _ _

theorem pay11_mat : toMat (k1_pay11 (F := Ideal) x0 x1)
    = Spec.mm (toMat (k1_pay9 (F := Ideal) x0 x1)) (toMat (k1_pay7 (F := Ideal) x0 x1)) := by
  unfold k1_pay11
  exact toMat_matmul _ _

theorem pay12_mat : toMat (k1_pay12 (F := Ideal) x0 x1)
    = fun i j => Spec.eye3 i j - Spec.mm (toMat (k1_pay11 (F := Ideal) x0 x1)) (toMat (k1_pay10 (F := Ideal) x0 x1)) i j := by
  funext i j
  unfold k1_pay12
  show toMat (k1_pay4 (F := Ideal)) i j
    - toMat (matmul dot_S64x64_S64x64_S64x64_1_0_0_1_n_n none (k1_pay11 (F := Ideal) x0 x1) (k1_pay10 (F := Ideal) x0 x1)
        (constant S64x64 .f32 0x00000000#32)) i j = _
  rw [pay4_mat, toMat_matmul]

end Steps

/-- The splat of one half. -/
theorem pay13_mat : toMat (k1_pay13 (F := Ideal)) = fun _ _ => Spec.cHalf := by
  funext i j
  unfold k1_pay13
  rfl

/-! ## The Newton–Schulz chain, cut after its second step

The body computes the first two steps in one part and the last three in another; the specification's chain of
definitions is cut at the same place. -/

/-- The second step's Y, from the covariance and its trace. -/
def nsY1 (cov : Spec.Mat) (t : EReal) : Spec.Mat :=
  let A : Spec.Mat := fun i j => Ideal.div (cov i j) t
  let ZY0 : Spec.Mat := Spec.half3m A
  let Y0 : Spec.Mat := Spec.mm A ZY0
  let ZY1 : Spec.Mat := Spec.half3m (Spec.mm ZY0 Y0)
  Spec.mm Y0 ZY1

/-- The second step's Z. -/
def nsZ1 (cov : Spec.Mat) (t : EReal) : Spec.Mat :=
  let A : Spec.Mat := fun i j => Ideal.div (cov i j) t
  let ZY0 : Spec.Mat := Spec.half3m A
  let Y0 : Spec.Mat := Spec.mm A ZY0
  let ZY1 : Spec.Mat := Spec.half3m (Spec.mm ZY0 Y0)
  Spec.mm ZY1 ZY0

/-- The last three steps and the scaling by √t, from the second step's two matrices. -/
def nsTail (Y1 Z1 : Spec.Mat) (t : EReal) : Spec.Mat :=
  let ZY2 : Spec.Mat := Spec.half3m (Spec.mm Z1 Y1)
  let Y2 : Spec.Mat := Spec.mm Y1 ZY2
  let Z2 : Spec.Mat := Spec.mm ZY2 Z1
  let ZY3 : Spec.Mat := Spec.half3m (Spec.mm Z2 Y2)
  let Y3 : Spec.Mat := Spec.mm Y2 ZY3
  let Z3 : Spec.Mat := Spec.mm ZY3 Z2
  fun i j => Spec.cHalf * Spec.mm Y3 (fun p q => Spec.eye3 p q - Spec.mm Z3 Y3 p q) i j * Ideal.sqrt t

/-- The specification's chain is the two halves composed. -/
theorem sqrtm_eq (cov : Spec.Mat) (t : EReal) : Spec.sqrtm cov t = nsTail (nsY1 cov t) (nsZ1 cov t) t := rfl

section FirstPart
variable (x0 : Vec Ideal S1x1x64 .f32) (x1 : Vec Ideal S1x64x64 .f32)

theorem pay10_ns : toMat (k1_pay10 (F := Ideal) x0 x1) = nsY1 (covOf x0 x1) (Spec.tr (covOf x0 x1)) := by
  rw [pay10_mat, pay9_mat, pay8_mat, pay7_mat, pay6_mat]
  rfl

theorem pay11_ns : toMat (k1_pay11 (F := Ideal) x0 x1) = nsZ1 (covOf x0 x1) (Spec.tr (covOf x0 x1)) := by
  rw [pay11_mat, pay9_mat, pay8_mat, pay7_mat, pay6_mat]
  rfl

theorem pay12_ns : toMat (k1_pay12 (F := Ideal) x0 x1)
    = fun i j => Spec.eye3 i j
        - Spec.mm (nsZ1 (covOf x0 x1) (Spec.tr (covOf x0 x1))) (nsY1 (covOf x0 x1) (Spec.tr (covOf x0 x1))) i j := by
  rw [pay12_mat, pay11_ns, pay10_ns]

end FirstPart

/-! ## The second part: three more steps, the column means, the perceptron -/

/-- The lane sum over the rows: the index the reduction reads at row r of column d is (r, d). -/
theorem colSum_apply (v : FVec Ideal S64x64 .f32) (h : S64x64.Reduces [0] S64) (hφ : FKind.Formats .f32)
    (hacc : (0x00000000#32 : BitVec 32) = FKind.add.neutral .f32 hφ) (d : Fin 64) :
    multiReduction .add [0] S64 v 0x00000000#32 h hφ hacc (ix1 d) = ∑ r : Fin 64, v (ix2 r d) := by
  refine (Ideal.multiReduction_add_single v _ h hφ hacc (ix1 d)).trans ?_
  refine Finset.sum_congr rfl fun r _ => congrArg v ?_
  funext a
  apply Fin.ext
  match a with
  | ⟨0, _⟩ => rfl
  | ⟨1, _⟩ => rfl

/-- What the second part leaves at channel c: the gate of the specification, for whatever the first part handed
    over, as long as it handed over three times the identity, the second step's Y and Z, 3·I − Z·Y and the
    splat of one half. -/
theorem pay14_apply (v20 : FVec Ideal S64x64 .f32) (v25 : Ideal .f32) (v36 v37 v39 v40 : FVec Ideal S64x64 .f32)
    (x2 : Vec Ideal S8x64 .f32) (x3 : Vec Ideal S1x8 .f32) (x4 : Vec Ideal S64x8 .f32) (x5 : Vec Ideal S1x64 .f32)
    (Y1 Z1 : Spec.Mat) (h20 : toMat v20 = Spec.eye3) (h36 : toMat v36 = Y1) (h37 : toMat v37 = Z1)
    (h39 : toMat v39 = fun i j => Spec.eye3 i j - Spec.mm Z1 Y1 i j) (h40 : toMat v40 = fun _ _ => Spec.cHalf)
    (c : Fin 64) (u : Fin 1) :
    k1_pay14 v20 v25 v36 v37 v39 v40 x2 x3 x4 x5 (ix2 c u)
      = Spec.gate (Spec.hidden (Spec.rowMean (nsTail Y1 Z1 v25)) (fun hh d => x2 (ix2 hh d)) (fun hh => x3 (ix2 0 hh)))
          (fun d hh => x4 (ix2 d hh)) (fun d => x5 (ix2 0 d)) c := by
  unfold k1_pay14
  -- the third step
  obtain ⟨ZY2, hZY2⟩ : ∃ M : Spec.Mat, M = Spec.half3m (Spec.mm Z1 Y1) := ⟨_, rfl⟩
  generalize e41 : mulf v40 v39 = v41
  have m41 : toMat v41 = ZY2 := by
    rw [← e41, hZY2]
    funext i j
    show toMat v40 i j * toMat v39 i j = _
    rw [h40, h39]
    rfl
  clear e41
  obtain ⟨Y2, hY2⟩ : ∃ M : Spec.Mat, M = Spec.mm Y1 ZY2 := ⟨_, rfl⟩
  generalize e42 : matmul dot_S64x64_S64x64_S64x64_1_0_0_1_n_n none v36 v41 (constant S64x64 .f32 0x00000000#32) = v42
  have m42 : toMat v42 = Y2 := by rw [← e42, toMat_matmul, h36, m41, hY2]
  clear e42
  obtain ⟨Z2, hZ2⟩ : ∃ M : Spec.Mat, M = Spec.mm ZY2 Z1 := ⟨_, rfl⟩
  generalize e43 : matmul dot_S64x64_S64x64_S64x64_1_0_0_1_n_n none v41 v37 (constant S64x64 .f32 0x00000000#32) = v43
  have m43 : toMat v43 = Z2 := by rw [← e43, toMat_matmul, h37, m41, hZ2]
  clear e43
  -- the fourth step
  generalize e44 : matmul dot_S64x64_S64x64_S64x64_1_0_0_1_n_n none v43 v42 (constant S64x64 .f32 0x00000000#32) = v44
  have m44 : toMat v44 = Spec.mm Z2 Y2 := by rw [← e44, toMat_matmul, m43, m42]
  clear e44
  obtain ⟨ZY3, hZY3⟩ : ∃ M : Spec.Mat, M = Spec.half3m (Spec.mm Z2 Y2) := ⟨_, rfl⟩
  generalize e47 : mulf (broadcast S64x64 (Scalar.ofBits (F := Ideal) .f32 0x3F000000#32)) (subf v20 v44) = v47
  have m47 : toMat v47 = ZY3 := by rw [← e47, half3_mat v20 v44 h20, m44, hZY3]
  clear e47
  obtain ⟨Y3, hY3⟩ : ∃ M : Spec.Mat, M = Spec.mm Y2 ZY3 := ⟨_, rfl⟩
  generalize e48 : matmul dot_S64x64_S64x64_S64x64_1_0_0_1_n_n none v42 v47 (constant S64x64 .f32 0x00000000#32) = v48
  have m48 : toMat v48 = Y3 := by rw [← e48, toMat_matmul, m42, m47, hY3]
  clear e48
  obtain ⟨Z3, hZ3⟩ : ∃ M : Spec.Mat, M = Spec.mm ZY3 Z2 := ⟨_, rfl⟩
  generalize e49 : matmul dot_S64x64_S64x64_S64x64_1_0_0_1_n_n none v47 v43 (constant S64x64 .f32 0x00000000#32) = v49
  have m49 : toMat v49 = Z3 := by rw [← e49, toMat_matmul, m47, m43, hZ3]
  clear e49
  -- the fifth step, without its last product, and the scaling
  generalize e50 : matmul dot_S64x64_S64x64_S64x64_1_0_0_1_n_n none v49 v48 (constant S64x64 .f32 0x00000000#32) = v50
  have m50 : toMat v50 = Spec.mm Z3 Y3 := by rw [← e50, toMat_matmul, m49, m48]
  clear e50
  generalize e51 : subf v20 v50 = v51
  have m51 : toMat v51 = fun p q => Spec.eye3 p q - Spec.mm Z3 Y3 p q := by
    rw [← e51]
    funext p q
    show toMat v20 p q - toMat v50 p q = _
    rw [h20, m50]
  clear e51
  generalize e52 : matmul dot_S64x64_S64x64_S64x64_1_0_0_1_n_n none v48 v51 (constant S64x64 .f32 0x00000000#32) = v52
  have m52 : toMat v52 = Spec.mm Y3 (fun p q => Spec.eye3 p q - Spec.mm Z3 Y3 p q) := by
    rw [← e52, toMat_matmul, m48, m51]
  clear e52
  generalize e57 : mulf (mulf (broadcast S64x64 (Scalar.ofBits (F := Ideal) .f32 0x3F000000#32)) v52)
    (broadcast S64x64 (Scalar.sqrt v25)) = v57
  have m57 : toMat v57 = nsTail Y1 Z1 v25 := by
    rw [← e57]
    funext i j
    show Ideal.ofBits .f32 0x3F000000#32 * toMat v52 i j * Ideal.sqrt v25 = _
    rw [m52]
    subst hZ3 hY3 hZY3 hZ2 hY2 hZY2
    rfl
  clear e57 m52 m51 m50 m49 m48 m47 m44 m43 m42 m41
  -- the column means and the perceptron, from the outside in
  refine (shapeCast_1a_a1_apply _ _ c u).trans ?_
  show Ideal.logistic (_ + _) = Ideal.logistic (_ + _)
  refine congrArg Ideal.logistic (congrArg₂ (· + ·) ?_ (congrFun (shapeCast_shapeCast x5 _ _) _))
  refine (matmul_w2_apply _ _ 0 c).trans (Finset.sum_congr rfl fun k _ => congrArg (· * x4 (ix2 c k)) ?_)
  show max (_ + _) _ = max (_ + _) 0
  refine congrArg₂ max (congrArg₂ (· + ·) ?_ (congrFun (shapeCast_shapeCast x3 _ _) _)) Ideal.ofBits_zero_f32
  refine (matmul_w1_apply _ _ 0 k).trans (Finset.sum_congr rfl fun d _ => congrArg (· * x2 (ix2 k d)) ?_)
  refine (shapeCast_a_1a_apply _ _ 0 d).trans ?_
  show Ideal.div _ Spec.c64 = Ideal.div _ Spec.c64
  refine congrArg (fun z => Ideal.div z Spec.c64) ?_
  refine (colSum_apply v57 _ _ _ d).trans ?_
  rw [← m57]
  rfl

/-! ## The output block -/

theorem zeros3 : (![0, 0, 0] : Fin 3 → ℕ) = fun _ => 0 :=
  funext fun a => match a with | ⟨0, _⟩ => rfl | ⟨1, _⟩ => rfl | ⟨2, _⟩ => rfl

theorem zeros2 : (![0, 0] : Fin 2 → ℕ) = fun _ => 0 :=
  funext fun a => match a with | ⟨0, _⟩ => rfl | ⟨1, _⟩ => rfl

/-- What the body leaves in its output block, channel by channel: the gate the specification computes from the
    covariance of the two moment blocks and the perceptron's four parameter arrays. The body loads each input
    block whole and stores its one result whole, so the block is the stored value; the stored value is the second
    part's result with a unit axis put in front; the second part's inputs are what the first part hands over. -/
theorem out1_6_apply (x0 : Vec Ideal S1x1x64 .f32) (x1 : Vec Ideal S1x64x64 .f32) (x2 : Vec Ideal S8x64 .f32)
    (x3 : Vec Ideal S1x8 .f32) (x4 : Vec Ideal S64x8 .f32) (x5 : Vec Ideal S1x64 .f32) (ch : Fin 64) :
    Cert.KernelIdeal.Gen.out1_6 (F := Ideal) x0 x1 x2 x3 x4 x5 (ValueIdx.ix3 0 ch 0)
      = Cert.Spec.att (Cert.Spec.covMom (fun i => x0 (ValueIdx.ix3 0 0 i)) (fun i j => x1 (ValueIdx.ix3 0 i j)))
          (fun hh c => x2 (ValueIdx.ix2 hh c)) (fun hh => x3 (ValueIdx.ix2 0 hh)) (fun c hh => x4 (ValueIdx.ix2 c hh))
          (fun c => x5 (ValueIdx.ix2 0 c)) ch := by
  unfold out1_6
  rw [View.canon_unit_zero zeros3]
  simp only [View.ld_unit_zero (S := S1x1x64) zeros3, View.ld_unit_zero (S := S1x64x64) zeros3,
    View.ld_unit_zero (S := S8x64) zeros2, View.ld_unit_zero (S := S1x8) zeros2, View.ld_unit_zero (S := S64x8) zeros2,
    View.ld_unit_zero (S := S1x64) zeros2]
  unfold k1_pay1
  refine (shapeCast_ab_1ab_apply _ _ 0 ch 0).trans ?_
  refine (pay14_apply _ _ _ _ _ _ x2 x3 x4 x5 _ _ pay4_mat (pay10_ns x0 x1) (pay11_ns x0 x1) (pay12_ns x0 x1)
    pay13_mat ch 0).trans ?_
  rw [pay5_eq]
  rfl

end Cert.GateValue

end
-- ==== Proof.Reshape.lean ====
/-
  The reshapes between the image layout [16, 64, 256, 256] and the flattened layout [16, 64, 65536], and the two bias
  vectors read as one-row matrices, entry by entry.

  A reshape keeps the row-major order of the entries. Position (hh, w) of a 256 × 256 image is position 256·hh + w of
  the flattened image, since ((b·64 + ch)·256 + hh)·256 + w = (b·64 + ch)·65536 + (256·hh + w).
-/
import proofs.«120931_j11450382811433_2_alg».proof.KernelIdeal
import Idealize.ShloMosaic.Lib.Pipeline.Value
import Idealize.ShloMosaic.Lib.ValueIdx
import Idealize.ShloMosaic.Lib.ValueLayout

namespace Cert.Reshape

open Cert.KernelIdeal
open Idealize.ShloMosaic Idealize.ShloMosaic.ValueIdx

variable {α : Type}

/-- The flat position of pixel (hh, w) of a 256 × 256 image. -/
def pos (hh w : Fin 256) : Fin 65536 :=
  ⟨256 * hh.val + w.val, by have h1 := hh.isLt; have h2 := w.isLt; omega⟩

theorem pos_val (hh w : Fin 256) : (pos hh w).val = 256 * hh.val + w.val := rfl

/-- Every flat position is the position of exactly one pixel: (p / 256, p % 256). -/
theorem pos_div_mod (p : Fin 65536) :
    pos ⟨p.val / 256, by have := p.isLt; omega⟩ ⟨p.val % 256, Nat.mod_lt _ (by decide)⟩ = p := by
  apply Fin.ext
  show 256 * (p.val / 256) + p.val % 256 = p.val
  omega

/-- The flattened array at (b, ch, 256·hh + w) is the image array at (b, ch, hh, w). -/
theorem cast_to_flat (x : S16x64x256x256.Idx → α) (h : S16x64x256x256.ShapeCasts S16x64x65536)
    (b : Fin 16) (ch : Fin 64) (hh w : Fin 256) :
    shapeCast S16x64x65536 x h (ix3 b ch (pos hh w)) = x (ix4 b ch hh w) :=
  shapeCast_apply x h _ _ (by
    rw [Shape.rowMajor_val_four, Shape.rowMajor_val_three]
    show ((b.val * 64 + ch.val) * 256 + hh.val) * 256 + w.val = (b.val * 64 + ch.val) * 65536 + (256 * hh.val + w.val)
    omega)

/-- The image array rebuilt from a flattened one at (b, ch, hh, w) is the flattened array at (b, ch, 256·hh + w). -/
theorem cast_from_flat (y : S16x64x65536.Idx → α) (h : S16x64x65536.ShapeCasts S16x64x256x256)
    (b : Fin 16) (ch : Fin 64) (hh w : Fin 256) :
    shapeCast S16x64x256x256 y h (ix4 b ch hh w) = y (ix3 b ch (pos hh w)) :=
  shapeCast_apply y h _ _ (by
    rw [Shape.rowMajor_val_four, Shape.rowMajor_val_three]
    show (b.val * 64 + ch.val) * 65536 + (256 * hh.val + w.val) = ((b.val * 64 + ch.val) * 256 + hh.val) * 256 + w.val
    omega)

/-- A vector of 8 entries read as a 1 × 8 matrix: entry (0, k) is entry k. -/
theorem cast_row8 (v : S8.Idx → α) (h : S8.ShapeCasts S1x8) (u : Fin 1) (k : Fin 8) :
    shapeCast S1x8 v h (ix2 u k) = v (ix1 k) :=
  shapeCast_a_1a_apply v h u k

/-- A vector of 64 entries read as a 1 × 64 matrix: entry (0, k) is entry k. -/
theorem cast_row64 (v : S64.Idx → α) (h : S64.ShapeCasts S1x64) (u : Fin 1) (k : Fin 64) :
    shapeCast S1x64 v h (ix2 u k) = v (ix1 k) :=
  shapeCast_a_1a_apply v h u k

end Cert.Reshape
-- ==== Proof.KernelValue.lean ====
/-
  The idealized kernel's result, entry by entry, as a function of the arguments.

  The result buffer ends at the last boundary's contents; walking them back through the three calls and the four
  stretches of host operations gives, at entry (b, ch, h, w),
      x[b, ch, h, w] · gate_ch (covariance of batch element b from its two moments),
  the gates those of the specification at the launched weights and biases.
-/
import proofs.«120931_j11450382811433_2_alg».proof.Proof.Fold
import proofs.«120931_j11450382811433_2_alg».proof.Proof.Scale
import proofs.«120931_j11450382811433_2_alg».proof.Proof.GatesArray
import proofs.«120931_j11450382811433_2_alg».proof.Proof.GateValue
import proofs.«120931_j11450382811433_2_alg».proof.Proof.Reshape
import proofs.«120931_j11450382811433_2_alg».proof.Proof.Spec

set_option maxRecDepth 16384

noncomputable section

namespace Cert.KernelValue

open Cert.KernelIdeal Cert.KernelIdeal.Gen
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The five argument arrays as launched, as functions into the extended reals. -/
abbrev argX (c : Dev nD) : S16x64x256x256.Idx → EReal := m ((c : Thread nD τ).loc main_arg0)
abbrev argW1 (c : Dev nD) : S8x64.Idx → EReal := m ((c : Thread nD τ).loc main_arg1)
abbrev argB1 (c : Dev nD) : S8.Idx → EReal := m ((c : Thread nD τ).loc main_arg2)
abbrev argW2 (c : Dev nD) : S64x8.Idx → EReal := m ((c : Thread nD τ).loc main_arg3)
abbrev argB2 (c : Dev nD) : S64.Idx → EReal := m ((c : Thread nD τ).loc main_arg4)

/-- Batch element b of the input as 64 channels of 65536 positions: the input cast to [16, 64, 65536], read at (b, ·, ·). -/
def chan (x : S16x64x256x256.Idx → EReal) (b : Fin 16) : Fin 64 → Fin 65536 → EReal :=
  fun ch p => shapeCast S16x64x65536 x shapeCasts_S16x64x256x256_S16x64x65536 (ix3 b ch p)

/-- The result at an entry, given what the first call leaves in its two output arrays. -/
theorem result_apply
    (h1 : ∀ (V : (c : Dev nD) → (b : Ref sig .tc) → Buf (Elt Ideal) ((c : Thread nD τ).loc b)) (c : Dev nD),
      (dat0 (F := Ideal) V c).arrAt 1 cfg0.N = fun i => Cert.Spec.mom1 (fun ch p => V c main_v0 (ix3 (i 0) ch p)) (i 2))
    (h2 : ∀ (V : (c : Dev nD) → (b : Ref sig .tc) → Buf (Elt Ideal) ((c : Thread nD τ).loc b)) (c : Dev nD),
      (dat0 (F := Ideal) V c).arrAt 2 cfg0.N = fun i => Cert.Spec.mom2 (fun ch p => V c main_v0 (ix3 (i 0) ch p)) (i 1) (i 2))
    (c : Dev nD) (b : Fin 16) (ch : Fin 64) (hh w : Fin 256) :
    W7 m ρ c (Proc.devRef .tc main_v6) (ix4 b ch hh w)
      = argX m c (ix4 b ch hh w)
        * Cert.Spec.att (Cert.Spec.covMom (Cert.Spec.mom1 (chan (argX m c) b)) (Cert.Spec.mom2 (chan (argX m c) b)))
            (fun h c' => argW1 m c (ix2 h c')) (fun h => argB1 m c (ix1 h))
            (fun c' h => argW2 m c (ix2 c' h)) (fun c' => argB2 m c (ix1 c')) ch := by
  rw [Cert.KernelIdeal.Fold.W7_v6, Cert.Reshape.cast_from_flat, Cert.Scale.final (V5 m ρ) c]
  have e0 : V5 m ρ c main_v0 = shapeCast S16x64x65536 (argX m c) shapeCasts_S16x64x256x256_S16x64x65536 :=
    Cert.KernelIdeal.Fold.W5_v0 m ρ c
  have e4 : V5 m ρ c main_v4 = (dat1 (V3 m ρ) c).arrAt 6 cfg1.N := Cert.KernelIdeal.Fold.W5_v4 m ρ c
  rw [e0, e4, Cert.GatesArray.final (V3 m ρ) Cert.GateValue.out1_6_apply c]
  have s10 : V3 m ρ c main_v1_0 = fun i => Cert.Spec.mom1 (fun ch p => V1 m ρ c main_v0 (ix3 (i 0) ch p)) (i 2) :=
    (Cert.KernelIdeal.Fold.W3_v1_0 m ρ c).trans (h1 (V1 m ρ) c)
  have s11 : V3 m ρ c main_v1_1 = fun i => Cert.Spec.mom2 (fun ch p => V1 m ρ c main_v0 (ix3 (i 0) ch p)) (i 1) (i 2) :=
    (Cert.KernelIdeal.Fold.W3_v1_1 m ρ c).trans (h2 (V1 m ρ) c)
  have ev0 : V1 m ρ c main_v0 = shapeCast S16x64x65536 (argX m c) shapeCasts_S16x64x256x256_S16x64x65536 :=
    Cert.KernelIdeal.Fold.W1_v0 m ρ c
  have ew1 : V3 m ρ c main_arg1 = argW1 m c := Cert.KernelIdeal.Fold.W3_arg1 m ρ c
  have ew2 : V3 m ρ c main_arg3 = argW2 m c := Cert.KernelIdeal.Fold.W3_arg3 m ρ c
  have eb1 : V3 m ρ c main_v2 = shapeCast S1x8 (argB1 m c) shapeCasts_S8_S1x8 := Cert.KernelIdeal.Fold.W3_v2 m ρ c
  have eb2 : V3 m ρ c main_v3 = shapeCast S1x64 (argB2 m c) shapeCasts_S64_S1x64 := Cert.KernelIdeal.Fold.W3_v3 m ρ c
  rw [s10, s11, ew1, ew2, eb1, eb2, ev0]
  unfold Cert.Scale.scaled Cert.GatesArray.gates
  rw [Cert.Reshape.cast_to_flat]
  simp only [Cert.Reshape.cast_row8, Cert.Reshape.cast_row64]
  rfl

end Cert.KernelValue

end
-- ==== Proof.RefValue.lean ====
/-
  The reference program's result, read one element at a time, is the channel-attention specification.

  The reference flattens each image to 64 channels of 65536 positions, centres every channel by its
  mean, takes the 64 × 64 matrix of products of centred channels divided by 65536 (the covariance in
  the centred form), divides it by its trace, runs the Newton–Schulz iteration (each step the matrix
  products and the factor 0.5·(3·I − P) of the specification, in the same order), scales by the square
  root of the trace, averages over the rows, and passes the 64 averages through the two-layer
  perceptron whose last stage, 1 / (1 + exp (−z)), is the logistic function by definition.  Each lemma
  below reads one stage of the program at coordinates and names what it is; the last one composes them.

  The flattening itself is never opened: the flattened array is only ever read at a coordinate triple.
-/
import proofs.«120931_j11450382811433_2_alg».proof.Proof.RefRead
import proofs.«120931_j11450382811433_2_alg».proof.Proof.Spec
import Idealize.ShloMosaic.Lib.ValueIdx
import Idealize.ShloMosaic.PureOps.Ideal.Laws

noncomputable section

namespace Cert.RefValue

open Cert.ReferenceIdeal Cert.ReferenceIdeal.Read Cert.Spec
open Idealize.ShloMosaic Idealize.ShloMosaic.ValueIdx Idealize.ShloMosaic.TcCoe Idealize.SL.Sem

/-- An array of extended reals of shape `s`. -/
abbrev Arr (s : Shape) := (⟨s, .f32⟩ : BufTy).Contents (Elt Ideal)

/-- Two index functions of rank 1, 2 or 3 agree when they agree coordinate by coordinate. -/
local macro "idx1" : term =>
  `(funext fun a => Fin.ext (by match a with | ⟨0, _⟩ => rfl))
local macro "idx2" : term =>
  `(funext fun a => Fin.ext (by match a with | ⟨0, _⟩ => rfl | ⟨1, _⟩ => rfl))
local macro "idx3" : term =>
  `(funext fun a => Fin.ext (by match a with | ⟨0, _⟩ => rfl | ⟨1, _⟩ => rfl | ⟨2, _⟩ => rfl))

/-- Batch `b` of a [16, 64, 64] array, as a 64 × 64 matrix. -/
def mat (v : Arr S16x64x64) (b : Fin 16) : Mat := fun i j => v (ix3 b i j)

/-- Batch `b` of the flattened input: 64 channels of 65536 positions. -/
abbrev chan (x0 : Arr S16x64x256x256) (b : Fin 16) : Fin 64 → Fin 65536 → EReal :=
  fun c p => val_main_v0 (F := Ideal) x0 (ix3 b c p)

/-! ## The covariance -/

/-- The channel mean: the sum over the positions (from the zero word) divided by the word of 65536. -/
theorem mean_eq (x0 : Arr S16x64x256x256) (b : Fin 16) (c : Fin 64) (z : Fin 1) :
    val_main_v4 (F := Ideal) x0 (ix3 b c z) = Ideal.div (mom1 (chan x0 b) c) cM := by
  rw [val_main_v4_apply, val_main_v2_apply, val_main_v1_apply, val_main_v3_apply, val_main_cst_0_apply,
    val_main_cst_apply]
  simp only [Ideal.hostDivf_def, Ideal.ofBits_def, Ideal.ofBits_zero_f32, zero_add]
  refine congrArg (fun s => Ideal.div s cM) (Finset.sum_congr rfl fun k _ => ?_)
  exact congrArg (val_main_v0 (F := Ideal) x0) idx3

/-- The centred channel. -/
theorem centred_eq (x0 : Arr S16x64x256x256) (b : Fin 16) (c : Fin 64) (p : Fin 65536) :
    val_main_v6 (F := Ideal) x0 (ix3 b c p) = chan x0 b c p - Ideal.div (mom1 (chan x0 b) c) cM := by
  rewrite [val_main_v6_apply, val_main_v5_apply, show idx_main_v5 (ix3 b c p) = ix3 b c (0 : Fin 1) from idx3, mean_eq]
  rfl

/-- The products of centred channels, summed over the positions and divided by 65536: the centred covariance. -/
theorem cov_eq (x0 : Arr S16x64x256x256) (b : Fin 16) :
    mat (val_main_v9 (F := Ideal) x0) b = covCen (chan x0 b) := by
  funext i j
  show val_main_v9 (F := Ideal) x0 (ix3 b i j) = _
  rw [val_main_v9_apply, val_main_v7_apply, val_main_v8_apply, val_main_cst_1_apply]
  simp only [covCen, Ideal.hostDivf_def, Ideal.ofBits_def]
  refine congrArg (fun s => Ideal.div s cM) (Finset.sum_congr rfl fun k _ => ?_)
  rw [show lidx_main_v7 (ix3 b i j) k = ix3 b i k from idx3, show ridx_main_v7 (ix3 b i j) k = ix3 b j k from idx3,
    centred_eq, centred_eq]

/-! ## Three times the identity, and the diagonal mask -/

/-- Two row or column numbers below 64, as 32-bit words, are equal words exactly when they are equal. -/
theorem diag_word (i j : Fin 64) :
    IntOp.cmpi .eq (BitVec.ofNat 32 i.val) (BitVec.ofNat 32 j.val) = if i = j then 1#1 else 0#1 := by
  by_cases h : i = j
  · subst h; simp [IntOp.cmpi]
  · have hne : BitVec.ofNat 32 i.val ≠ BitVec.ofNat 32 j.val := by
      intro e
      have e' := congrArg BitVec.toNat e
      simp only [BitVec.toNat_ofNat] at e'
      have hi := i.isLt
      have hj := j.isLt
      rw [Nat.mod_eq_of_lt (by omega), Nat.mod_eq_of_lt (by omega)] at e'
      exact h (Fin.ext e')
    have hb : (BitVec.ofNat 32 i.val == BitVec.ofNat 32 j.val) = false := beq_false_of_ne hne
    simp [IntOp.cmpi, h, hb]

/-- The one-bit word of "on the diagonal", read as a number, is the 0/1 indicator. -/
theorem ind_word (i j : Fin 64) :
    (((if i = j then 1#1 else 0#1 : BitVec 1).toNat : ℝ) : EReal) = if i = j then (1 : EReal) else 0 := by
  by_cases h : i = j
  · rw [if_pos h, if_pos h]; simp
  · rw [if_neg h, if_neg h]; simp

/-- The word of 3.0 times the indicator of the diagonal (the row number plus the zero word, compared
    with the column number). -/
theorem eye_eq (i j : Fin 64) : val_main_v17 (F := Ideal) (ix2 i j) = eye3 i j := by
  rw [val_main_v17_apply, val_main_v16_apply, val_main_cst_2_apply, val_main_v15_apply, val_main_v14_apply,
    val_main_v13_apply, val_main_v10_apply, val_main_v12_apply, val_main_c_apply, val_main_v11_apply]
  show Ideal.ofBits .f32 0x40400000#32
      * (((IntOp.cmpi .eq (IntOp.addi (BitVec.ofNat 32 i.val) 0#32) (BitVec.ofNat 32 j.val)).toNat : ℝ) : EReal) = _
  rewrite [show IntOp.addi (BitVec.ofNat 32 i.val) 0#32 = BitVec.ofNat 32 i.val from BitVec.add_zero _, diag_word, ind_word]
  rfl

/-- The diagonal mask of the trace, the same for every batch. -/
theorem mask_eq (b : Fin 16) (i j : Fin 64) :
    val_main_v21 (F := Ideal) (ix3 b i j) = if i = j then 1#1 else 0#1 := by
  rw [val_main_v21_apply, val_main_v20_apply, val_main_v18_apply, val_main_v19_apply]
  exact diag_word i j

/-! ## The trace -/

/-- The indices of a [16, 64, 64] array that a sum over its last two axes sends to batch `b` are the
    (row, column) pairs of that batch, so the sum over them is the double sum. -/
theorem sum_batch (h : S16x64x64.ReducesTo [1, 2] S16) (f : S16x64x64.Idx → EReal) (b : Fin 16) :
    ∑ i ∈ Finset.univ.filter (fun i => h.drop i = ix1 b), f i = ∑ p : Fin 64, ∑ q : Fin 64, f (ix3 b p q) := by
  have hdrop : ∀ a : S16x64x64.Idx, (h.drop a ⟨0, by decide⟩ : Nat) = (a 0).val := fun a =>
    Shape.ReducesTo.drop_apply_val_of_eq h a ⟨0, by decide⟩ 0
  have hmem : ∀ a : S16x64x64.Idx, h.drop a = ix1 b → a = ix3 b (a 1) (a 2) := fun a ha => by
    have h0 : a 0 = b :=
      Fin.ext ((hdrop a).symm.trans (congrArg (fun (t : S16.Idx) => (t ⟨0, by decide⟩ : Nat)) ha))
    exact (eq_ix3 a).trans (congrArg (fun t => ix3 t (a 1) (a 2)) h0)
  calc ∑ i ∈ Finset.univ.filter (fun i => h.drop i = ix1 b), f i
      = ∑ x : Fin 64 × Fin 64, f (ix3 b x.1 x.2) :=
        Finset.sum_nbij' (fun a => (a 1, a 2)) (fun p => ix3 b p.1 p.2) (fun _ _ => Finset.mem_univ _)
          (fun p _ => Finset.mem_filter.mpr ⟨Finset.mem_univ _,
            funext fun a => Fin.ext (by match a with | ⟨0, _⟩ => exact hdrop _)⟩)
          (fun a ha => (hmem a (Finset.mem_filter.mp ha).2).symm)
          (fun p _ => rfl) (fun a ha => congrArg f (hmem a (Finset.mem_filter.mp ha).2))
    _ = ∑ p : Fin 64, ∑ q : Fin 64, f (ix3 b p q) := Fintype.sum_prod_type' (fun p q => f (ix3 b p q))

/-- So the sum over the last two axes, read at batch `b`, is the initial value plus the double sum. -/
theorem hostReduceAdd_batch (h : S16x64x64.ReducesTo [1, 2] S16) (f : S16x64x64.Idx → EReal) (init : EReal)
    (b : Fin 16) :
    Ideal.hostReduceAdd h f init (ix1 b) = init + ∑ p : Fin 64, ∑ q : Fin 64, f (ix3 b p q) :=
  congrArg (init + ·) (sum_batch h f b)

/-- The sum of the masked covariance over rows and columns, from the zero word: the trace. -/
theorem trace_eq (x0 : Arr S16x64x256x256) (b : Fin 16) :
    val_main_v24 (F := Ideal) x0 (ix1 b) = tr (mat (val_main_v9 (F := Ideal) x0) b) := by
  unfold val_main_v24
  simp only [Host.reduceAdd, Ideal.hostReduceAdd_def]
  rw [hostReduceAdd_batch, val_main_cst_4_apply]
  simp only [Ideal.ofBits_def, Ideal.ofBits_zero_f32, zero_add]
  show _ = ∑ p : Fin 64, val_main_v9 (F := Ideal) x0 (ix3 b p p)
  refine Finset.sum_congr rfl fun p _ => ?_
  have hq : ∀ q : Fin 64, val_main_v23 (F := Ideal) x0 (ix3 b p q)
      = if p = q then val_main_v9 (F := Ideal) x0 (ix3 b p q) else 0 := fun q => by
    rw [val_main_v23_apply, mask_eq, val_main_v22_apply, val_main_cst_3_apply]
    by_cases hpq : p = q
    · rw [if_pos hpq, if_pos hpq]; exact select_one _ _
    · rw [if_neg hpq, if_neg hpq]; exact (select_zero _ _).trans Ideal.ofBits_zero_f32
  exact (Finset.sum_congr rfl fun q _ => hq q).trans
    ((Finset.sum_ite_eq _ _ _).trans (if_pos (Finset.mem_univ _)))

/-! ## The Newton–Schulz iteration -/

/-- A sum of products along a row of one batch matrix and a column of another is their matrix product. -/
theorem sum_mm (L R : Arr S16x64x64) (b : Fin 16) (i j : Fin 64) (f g : Fin 64 → S16x64x64.Idx)
    (hf : ∀ k, f k = ix3 b i k) (hg : ∀ k, g k = ix3 b k j) :
    ∑ k : Fin 64, L (f k) * R (g k) = mm (mat L b) (mat R b) i j :=
  Finset.sum_congr rfl fun k _ => by rewrite [hf k, hg k]; rfl

/-- The covariance divided by its trace. -/
theorem m27 (x0 : Arr S16x64x256x256) (b : Fin 16) :
    mat (val_main_v27 (F := Ideal) x0) b
      = fun i j => Ideal.div (mat (val_main_v9 (F := Ideal) x0) b i j) (val_main_v24 (F := Ideal) x0 (ix1 b)) := by
  funext i j
  show val_main_v27 (F := Ideal) x0 (ix3 b i j) = _
  rewrite [val_main_v27_apply, val_main_v26_apply, val_main_v25_apply,
    show idx_main_v25 (idx_main_v26 (ix3 b i j)) = ix1 b from idx1]
  rfl

/-- Three times the identity, repeated for every batch. -/
theorem eye_v29 (b : Fin 16) (i j : Fin 64) : val_main_v29 (F := Ideal) (ix3 b i j) = eye3 i j := by
  rw [val_main_v29_apply, val_main_v28_apply,
    show idx_main_v28 (idx_main_v29 (ix3 b i j)) = ix2 i j from idx2, eye_eq]

/-- Three times the identity, repeated for every batch. -/
theorem eye_v36 (b : Fin 16) (i j : Fin 64) : val_main_v36 (F := Ideal) (ix3 b i j) = eye3 i j := by
  rw [val_main_v36_apply, val_main_v35_apply,
    show idx_main_v35 (idx_main_v36 (ix3 b i j)) = ix2 i j from idx2, eye_eq]

/-- Three times the identity, repeated for every batch. -/
theorem eye_v44 (b : Fin 16) (i j : Fin 64) : val_main_v44 (F := Ideal) (ix3 b i j) = eye3 i j := by
  rw [val_main_v44_apply, val_main_v43_apply,
    show idx_main_v43 (idx_main_v44 (ix3 b i j)) = ix2 i j from idx2, eye_eq]

/-- Three times the identity, repeated for every batch. -/
theorem eye_v52 (b : Fin 16) (i j : Fin 64) : val_main_v52 (F := Ideal) (ix3 b i j) = eye3 i j := by
  rw [val_main_v52_apply, val_main_v51_apply,
    show idx_main_v51 (idx_main_v52 (ix3 b i j)) = ix2 i j from idx2, eye_eq]

/-- Three times the identity, repeated for every batch. -/
theorem eye_v60 (b : Fin 16) (i j : Fin 64) : val_main_v60 (F := Ideal) (ix3 b i j) = eye3 i j := by
  rw [val_main_v60_apply, val_main_v59_apply,
    show idx_main_v59 (idx_main_v60 (ix3 b i j)) = ix2 i j from idx2, eye_eq]

/-- The word of 0.5 times (three times the identity minus the previous product). -/
theorem m32 (x0 : Arr S16x64x256x256) (b : Fin 16) :
    mat (val_main_v32 (F := Ideal) x0) b = half3m (mat (val_main_v27 (F := Ideal) x0) b) := by
  funext i j
  show val_main_v32 (F := Ideal) x0 (ix3 b i j) = _
  rewrite [val_main_v32_apply, val_main_v31_apply, val_main_cst_5_apply, val_main_v30_apply, eye_v29]
  rfl

/-- The word of 0.5 times (three times the identity minus the previous product). -/
theorem m39 (x0 : Arr S16x64x256x256) (b : Fin 16) :
    mat (val_main_v39 (F := Ideal) x0) b = half3m (mat (val_main_v34 (F := Ideal) x0) b) := by
  funext i j
  show val_main_v39 (F := Ideal) x0 (ix3 b i j) = _
  rewrite [val_main_v39_apply, val_main_v38_apply, val_main_cst_6_apply, val_main_v37_apply, eye_v36]
  rfl

/-- The word of 0.5 times (three times the identity minus the previous product). -/
theorem m47 (x0 : Arr S16x64x256x256) (b : Fin 16) :
    mat (val_main_v47 (F := Ideal) x0) b = half3m (mat (val_main_v42 (F := Ideal) x0) b) := by
  funext i j
  show val_main_v47 (F := Ideal) x0 (ix3 b i j) = _
  rewrite [val_main_v47_apply, val_main_v46_apply, val_main_cst_7_apply, val_main_v45_apply, eye_v44]
  rfl

/-- The word of 0.5 times (three times the identity minus the previous product). -/
theorem m55 (x0 : Arr S16x64x256x256) (b : Fin 16) :
    mat (val_main_v55 (F := Ideal) x0) b = half3m (mat (val_main_v50 (F := Ideal) x0) b) := by
  funext i j
  show val_main_v55 (F := Ideal) x0 (ix3 b i j) = _
  rewrite [val_main_v55_apply, val_main_v54_apply, val_main_cst_8_apply, val_main_v53_apply, eye_v52]
  rfl

/-- A matrix product of two earlier stages of the iteration. -/
theorem m33 (x0 : Arr S16x64x256x256) (b : Fin 16) :
    mat (val_main_v33 (F := Ideal) x0) b
      = mm (mat (val_main_v27 (F := Ideal) x0) b) (mat (val_main_v32 (F := Ideal) x0) b) :=
  funext fun i => funext fun j => (val_main_v33_apply x0 (ix3 b i j)).trans
    (sum_mm _ _ b i j _ _ (fun _ => idx3) (fun _ => idx3))

/-- A matrix product of two earlier stages of the iteration. -/
theorem m34 (x0 : Arr S16x64x256x256) (b : Fin 16) :
    mat (val_main_v34 (F := Ideal) x0) b
      = mm (mat (val_main_v32 (F := Ideal) x0) b) (mat (val_main_v33 (F := Ideal) x0) b) :=
  funext fun i => funext fun j => (val_main_v34_apply x0 (ix3 b i j)).trans
    (sum_mm _ _ b i j _ _ (fun _ => idx3) (fun _ => idx3))

/-- A matrix product of two earlier stages of the iteration. -/
theorem m40 (x0 : Arr S16x64x256x256) (b : Fin 16) :
    mat (val_main_v40 (F := Ideal) x0) b
      = mm (mat (val_main_v33 (F := Ideal) x0) b) (mat (val_main_v39 (F := Ideal) x0) b) :=
  funext fun i => funext fun j => (val_main_v40_apply x0 (ix3 b i j)).trans
    (sum_mm _ _ b i j _ _ (fun _ => idx3) (fun _ => idx3))

/-- A matrix product of two earlier stages of the iteration. -/
theorem m41 (x0 : Arr S16x64x256x256) (b : Fin 16) :
    mat (val_main_v41 (F := Ideal) x0) b
      = mm (mat (val_main_v39 (F := Ideal) x0) b) (mat (val_main_v32 (F := Ideal) x0) b) :=
  funext fun i => funext fun j => (val_main_v41_apply x0 (ix3 b i j)).trans
    (sum_mm _ _ b i j _ _ (fun _ => idx3) (fun _ => idx3))

/-- A matrix product of two earlier stages of the iteration. -/
theorem m42 (x0 : Arr S16x64x256x256) (b : Fin 16) :
    mat (val_main_v42 (F := Ideal) x0) b
      = mm (mat (val_main_v41 (F := Ideal) x0) b) (mat (val_main_v40 (F := Ideal) x0) b) :=
  funext fun i => funext fun j => (val_main_v42_apply x0 (ix3 b i j)).trans
    (sum_mm _ _ b i j _ _ (fun _ => idx3) (fun _ => idx3))

/-- A matrix product of two earlier stages of the iteration. -/
theorem m48 (x0 : Arr S16x64x256x256) (b : Fin 16) :
    mat (val_main_v48 (F := Ideal) x0) b
      = mm (mat (val_main_v40 (F := Ideal) x0) b) (mat (val_main_v47 (F := Ideal) x0) b) :=
  funext fun i => funext fun j => (val_main_v48_apply x0 (ix3 b i j)).trans
    (sum_mm _ _ b i j _ _ (fun _ => idx3) (fun _ => idx3))

/-- A matrix product of two earlier stages of the iteration. -/
theorem m49 (x0 : Arr S16x64x256x256) (b : Fin 16) :
    mat (val_main_v49 (F := Ideal) x0) b
      = mm (mat (val_main_v47 (F := Ideal) x0) b) (mat (val_main_v41 (F := Ideal) x0) b) :=
  funext fun i => funext fun j => (val_main_v49_apply x0 (ix3 b i j)).trans
    (sum_mm _ _ b i j _ _ (fun _ => idx3) (fun _ => idx3))

/-- A matrix product of two earlier stages of the iteration. -/
theorem m50 (x0 : Arr S16x64x256x256) (b : Fin 16) :
    mat (val_main_v50 (F := Ideal) x0) b
      = mm (mat (val_main_v49 (F := Ideal) x0) b) (mat (val_main_v48 (F := Ideal) x0) b) :=
  funext fun i => funext fun j => (val_main_v50_apply x0 (ix3 b i j)).trans
    (sum_mm _ _ b i j _ _ (fun _ => idx3) (fun _ => idx3))

/-- A matrix product of two earlier stages of the iteration. -/
theorem m56 (x0 : Arr S16x64x256x256) (b : Fin 16) :
    mat (val_main_v56 (F := Ideal) x0) b
      = mm (mat (val_main_v48 (F := Ideal) x0) b) (mat (val_main_v55 (F := Ideal) x0) b) :=
  funext fun i => funext fun j => (val_main_v56_apply x0 (ix3 b i j)).trans
    (sum_mm _ _ b i j _ _ (fun _ => idx3) (fun _ => idx3))

/-- A matrix product of two earlier stages of the iteration. -/
theorem m57 (x0 : Arr S16x64x256x256) (b : Fin 16) :
    mat (val_main_v57 (F := Ideal) x0) b
      = mm (mat (val_main_v55 (F := Ideal) x0) b) (mat (val_main_v49 (F := Ideal) x0) b) :=
  funext fun i => funext fun j => (val_main_v57_apply x0 (ix3 b i j)).trans
    (sum_mm _ _ b i j _ _ (fun _ => idx3) (fun _ => idx3))

/-- A matrix product of two earlier stages of the iteration. -/
theorem m58 (x0 : Arr S16x64x256x256) (b : Fin 16) :
    mat (val_main_v58 (F := Ideal) x0) b
      = mm (mat (val_main_v57 (F := Ideal) x0) b) (mat (val_main_v56 (F := Ideal) x0) b) :=
  funext fun i => funext fun j => (val_main_v58_apply x0 (ix3 b i j)).trans
    (sum_mm _ _ b i j _ _ (fun _ => idx3) (fun _ => idx3))

/-- A matrix product of two earlier stages of the iteration. -/
theorem m62 (x0 : Arr S16x64x256x256) (b : Fin 16) :
    mat (val_main_v62 (F := Ideal) x0) b
      = mm (mat (val_main_v56 (F := Ideal) x0) b) (mat (val_main_v61 (F := Ideal) x0) b) :=
  funext fun i => funext fun j => (val_main_v62_apply x0 (ix3 b i j)).trans
    (sum_mm _ _ b i j _ _ (fun _ => idx3) (fun _ => idx3))

/-- Three times the identity minus the last product. -/
theorem m61 (x0 : Arr S16x64x256x256) (b : Fin 16) :
    mat (val_main_v61 (F := Ideal) x0) b
      = fun p q => eye3 p q - mat (val_main_v58 (F := Ideal) x0) b p q := by
  funext i j
  show val_main_v61 (F := Ideal) x0 (ix3 b i j) = _
  rewrite [val_main_v61_apply, eye_v60]
  rfl

/-- Five Newton–Schulz steps on the covariance over its trace, scaled back by the square root of the trace. -/
theorem sqrtm_eq (x0 : Arr S16x64x256x256) (b : Fin 16) :
    mat (val_main_v68 (F := Ideal) x0) b
      = sqrtm (mat (val_main_v9 (F := Ideal) x0) b) (val_main_v24 (F := Ideal) x0 (ix1 b)) := by
  funext i j
  show val_main_v68 (F := Ideal) x0 (ix3 b i j) = _
  rw [val_main_v68_apply, val_main_v64_apply, val_main_v63_apply, val_main_cst_9_apply, val_main_v67_apply,
    val_main_v66_apply, val_main_v65_apply, show idx_main_v66 (idx_main_v67 (ix3 b i j)) = ix1 b from idx1]
  have e62 : val_main_v62 (F := Ideal) x0 (ix3 b i j) = mat (val_main_v62 (F := Ideal) x0) b i j := rfl
  rewrite [e62, m62, m61, m58, m57, m56, m55, m50, m49, m48, m47, m42, m41, m40, m39, m34, m33, m32, m27]
  rfl

/-! ## The row mean and the two-layer perceptron -/

/-- The sum over the rows (from the zero word) divided by the word of 64. -/
theorem rowMean_eq (x0 : Arr S16x64x256x256) (b : Fin 16) :
    (fun d => val_main_v71 (F := Ideal) x0 (ix2 b d)) = rowMean (mat (val_main_v68 (F := Ideal) x0) b) := by
  funext d
  show val_main_v71 (F := Ideal) x0 (ix2 b d) = _
  rw [val_main_v71_apply, val_main_v69_apply, val_main_v70_apply, val_main_cst_11_apply, val_main_cst_10_apply]
  simp only [Ideal.hostDivf_def, Ideal.ofBits_def, Ideal.ofBits_zero_f32, zero_add]
  show _ = Ideal.div (∑ c : Fin 64, val_main_v68 (F := Ideal) x0 (ix3 b c d)) c64
  refine congrArg (fun s => Ideal.div s c64) (Finset.sum_congr rfl fun k _ => ?_)
  exact congrArg (val_main_v68 (F := Ideal) x0) idx3

/-- The first layer: the 64 → 8 linear map, the bias, the maximum with the zero word. -/
theorem hidden_eq (x0 : Arr S16x64x256x256) (x1 : Arr S8x64) (x2 : Arr S8) (b : Fin 16) :
    (fun h => val_main_v76 (F := Ideal) x0 x1 x2 (ix2 b h))
      = hidden (fun d => val_main_v71 (F := Ideal) x0 (ix2 b d)) (fun h c => x1 (ix2 h c)) (fun h => x2 (ix1 h)) := by
  funext h
  show val_main_v76 (F := Ideal) x0 x1 x2 (ix2 b h) = _
  rw [val_main_v76_apply, val_main_v75_apply, val_main_v72_apply, val_main_v74_apply, val_main_v73_apply,
    val_main_call0_v0_apply, val_main_call0_cst_apply,
    show idx_main_v73 (idx_main_v74 (ix2 b h)) = ix1 h from idx1]
  simp only [Ideal.maximumf_def, Ideal.addf_def, Ideal.ofBits_def, Ideal.ofBits_zero_f32]
  show max ((∑ k : Fin 64, _) + _) 0 = max ((∑ c : Fin 64, val_main_v71 (F := Ideal) x0 (ix2 b c) * x1 (ix2 h c)) + x2 (ix1 h)) 0
  refine congrArg (fun s => max (s + x2 (ix1 h)) 0) (Finset.sum_congr rfl fun k _ => ?_)
  rw [show lidx_main_v72 (ix2 b h) k = ix2 b k from idx2, show ridx_main_v72 (ix2 b h) k = ix2 h k from idx2]

/-- The word 0x3F800000 is the number one. -/
theorem one_word : Ideal.ofBits .f32 0x3F800000#32 = 1 := by
  simp [Ideal.ofBits, Ideal.ieee, -EReal.coe_mul]; norm_num

/-- The second layer: the 8 → 64 linear map, the bias, then 1 / (1 + exp (−z)), which is the logistic function. -/
theorem gate_eq (x0 : Arr S16x64x256x256) (x1 : Arr S8x64) (x2 : Arr S8) (x3 : Arr S64x8) (x4 : Arr S64)
    (b : Fin 16) :
    (fun c => val_main_v86 (F := Ideal) x0 x1 x2 x3 x4 (ix2 b c))
      = gate (fun h => val_main_v76 (F := Ideal) x0 x1 x2 (ix2 b h)) (fun c h => x3 (ix2 c h)) (fun c => x4 (ix1 c)) := by
  funext c
  show val_main_v86 (F := Ideal) x0 x1 x2 x3 x4 (ix2 b c) = _
  rw [val_main_v86_apply, val_main_v85_apply, val_main_cst_13_apply, val_main_v84_apply, val_main_v83_apply,
    val_main_cst_12_apply, val_main_v82_apply, val_main_v81_apply, val_main_v80_apply, val_main_v77_apply,
    val_main_v79_apply, val_main_v78_apply, show idx_main_v78 (idx_main_v79 (ix2 b c)) = ix1 c from idx1]
  simp only [Ideal.hostDivf_def, Ideal.addf_def, Ideal.hostUnary_exp_def, Ideal.hostNegf_def, Ideal.negf_def,
    Ideal.ofBits_def, one_word]
  show Ideal.div 1 (1 + Ideal.exp (-((∑ k : Fin 8, _) + _)))
    = Ideal.div 1 (1 + Ideal.exp (-((∑ h : Fin 8, val_main_v76 (F := Ideal) x0 x1 x2 (ix2 b h) * x3 (ix2 c h)) + x4 (ix1 c))))
  refine congrArg (fun s => Ideal.div 1 (1 + Ideal.exp (-(s + x4 (ix1 c))))) (Finset.sum_congr rfl fun k _ => ?_)
  rw [show lidx_main_v77 (ix2 b c) k = ix2 b k from idx2, show ridx_main_v77 (ix2 b c) k = ix2 c k from idx2]

/-! ## The result -/

/-- The 64 gates of batch `b`, as the program computes them, are the specification's gates of the centred
    covariance of that batch's channels. -/
theorem att_eq (x0 : Arr S16x64x256x256) (x1 : Arr S8x64) (x2 : Arr S8) (x3 : Arr S64x8) (x4 : Arr S64)
    (b : Fin 16) :
    (fun c => val_main_v86 (F := Ideal) x0 x1 x2 x3 x4 (ix2 b c))
      = att (covCen (fun c' p => val_main_v0 (F := Ideal) x0 (ix3 b c' p)))
          (fun h c' => x1 (ix2 h c')) (fun h => x2 (ix1 h)) (fun c' h => x3 (ix2 c' h)) (fun c' => x4 (ix1 c')) := by
  rewrite [gate_eq, hidden_eq, rowMean_eq, sqrtm_eq, trace_eq, cov_eq]
  rfl

/-- The reference's result at (b, ch, h, w): the gate of channel `ch` of batch `b` times the input there. -/
theorem val_main_v89_spec (x0 : Arr S16x64x256x256) (x1 : Arr S8x64) (x2 : Arr S8) (x3 : Arr S64x8) (x4 : Arr S64)
    (b : Fin 16) (ch : Fin 64) (h w : Fin 256) :
    val_main_v89 (F := Ideal) x0 x1 x2 x3 x4 (ix4 b ch h w)
      = att (covCen (fun c' p => val_main_v0 (F := Ideal) x0 (ix3 b c' p)))
          (fun hh c' => x1 (ix2 hh c')) (fun hh => x2 (ix1 hh)) (fun c' hh => x3 (ix2 c' hh)) (fun c' => x4 (ix1 c')) ch
        * x0 (ix4 b ch h w) := by
  rewrite [← att_eq x0 x1 x2 x3 x4 b, val_main_v89_apply, val_main_v88_apply, val_main_v87_apply,
    show idx_main_v87 (idx_main_v88 (ix4 b ch h w)) = ix2 b ch from idx2]
  rfl

/-- The same of the run's term for the result buffer, over the argument buffers of a memory. -/
theorem res_main_v89_spec (m : (ℓ : Loc nD τ sig) → Buf (Elt Ideal) ℓ) (c : Dev nD)
    (b : Fin 16) (ch : Fin 64) (h w : Fin 256) :
    Cert.ReferenceIdeal.Value.res_main_v89 (F := Ideal) m c (ix4 b ch h w)
      = att (covCen (fun c' p =>
              val_main_v0 (F := Ideal) (m ((c.tc : Thread nD τ).loc main_arg0)) (ix3 b c' p)))
          (fun hh c' => m ((c.tc : Thread nD τ).loc main_arg1) (ix2 hh c'))
          (fun hh => m ((c.tc : Thread nD τ).loc main_arg2) (ix1 hh))
          (fun c' hh => m ((c.tc : Thread nD τ).loc main_arg3) (ix2 c' hh))
          (fun c' => m ((c.tc : Thread nD τ).loc main_arg4) (ix1 c')) ch
        * m ((c.tc : Thread nD τ).loc main_arg0) (ix4 b ch h w) := by
  rw [val_main_v89_eq]
  exact val_main_v89_spec _ _ _ _ _ b ch h w

end Cert.RefValue

end
-- ==== Proof.CovAlgebra.lean ====
/-
  The covariance of 64 channels over M = 65536 positions, taken from the first and second moments,
  equals the covariance in the centred form whenever every entry is a real number:

      (∑ x_c x_d − (∑ x_c)(∑ x_d) / M) / M  =  (∑ (x_c − μ_c)(x_d − μ_d)) / M,   μ = (∑ x) / M.

  The identity is first proved over ℝ for an arbitrary finite index type with M elements; the extended
  real statement follows by writing every entry as the coercion of a real and pulling the coercion out
  of the sums, products, differences and the divisions by the real number M.
-/
import proofs.«120931_j11450382811433_2_alg».proof.Proof.Spec
import Mathlib.Data.EReal.Basic
import Mathlib.Algebra.BigOperators.Field
import Mathlib.Tactic

noncomputable section

namespace Cert.Spec

open Idealize.ShloMosaic

/-- The float word 0x47800000 denotes the real number 65536. -/
theorem cM_eq : cM = ((65536 : ℝ) : EReal) := by
  simp [cM, Ideal.ofBits, Ideal.ieee, -EReal.coe_mul]; norm_num

/-- A finite sum of coerced reals is the coercion of the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The covariance identity over the reals, for any finite index type with M ≠ 0 elements. -/
theorem cov_real {ι : Type*} [Fintype ι] (M : ℝ) (hM : M ≠ 0) (hcard : (Fintype.card ι : ℝ) = M)
    (a b : ι → ℝ) :
    ((∑ m, a m * b m) - ((∑ m, a m) * (∑ m, b m)) * (1 / M)) * (1 / M)
      = (∑ m, (a m - (∑ m, a m) * (1 / M)) * (b m - (∑ m, b m) * (1 / M))) * (1 / M) := by
  have expand : ∀ m, (a m - (∑ m, a m) * (1 / M)) * (b m - (∑ m, b m) * (1 / M))
      = a m * b m - a m * ((∑ m, b m) * (1 / M)) - ((∑ m, a m) * (1 / M)) * b m
        + ((∑ m, a m) * (1 / M)) * ((∑ m, b m) * (1 / M)) := fun m => by ring
  simp only [expand]
  rw [Finset.sum_add_distrib, Finset.sum_sub_distrib, Finset.sum_sub_distrib, ← Finset.sum_mul,
    ← Finset.mul_sum, Finset.sum_const, Finset.card_univ, nsmul_eq_mul, hcard]
  field_simp
  ring

theorem covMom_eq_covCen (X : Fin 64 → Fin 65536 → EReal) (hX : ∀ c m, X c m ≠ ⊤ ∧ X c m ≠ ⊥) :
    covMom (mom1 X) (mom2 X) = covCen X := by
  -- every entry is the coercion of a real number
  have hreal : ∀ c m, ∃ r : ℝ, X c m = (r : EReal) := fun c m =>
    ⟨(X c m).toReal, (EReal.coe_toReal (hX c m).1 (hX c m).2).symm⟩
  choose r hr using hreal
  have hM : (65536 : ℝ) ≠ 0 := by norm_num
  funext c d
  simp only [covMom, covCen, mom1, mom2, cM_eq, hr, Ideal.div_coe hM]
  simp only [← EReal.coe_mul, ← EReal.coe_sub, coe_sum]
  have hcard : (Fintype.card (Fin 65536) : ℝ) = 65536 := by
    rw [Fintype.card_fin]; norm_num
  rw [cov_real (ι := Fin 65536) 65536 hM hcard (r c) (r d)]

end Cert.Spec

end
-- ==== Proof.FiniteInputs.lean ====
/-
  The precondition says that every entry of each of the five input arrays has absolute value below +∞:
  for each array the comparison |v| < +∞ is taken entry by entry, the resulting bits are joined by "and"
  over all axes, and the five joined bits are joined by "and" once more; the claim is that the final bit
  is 1. Here the part about the first array is read back: if the final bit is 1 then, for every index j,
  the entry x j is neither +∞ nor −∞, that is, it is a real number.

  Over the extended reals |a| is max a (−a), and max a (−a) < ⊤ fails exactly when a = ⊤ or a = ⊥.
-/
import proofs.«120931_j11450382811433_2_alg».proof.Defs
import Idealize.ShloMosaic.Lib.ReduceAll
import Idealize.ShloMosaic.Lib.ValueIdx
import proofs.«120931_j11450382811433_2_alg».proof.Proof.Gen.Pre_finite_inputs

noncomputable section

namespace Cert.FiniteInputs

open Idealize.ShloMosaic Idealize.SL.Sem Cert.Pre_finite_inputs

/-- The scalar shape has exactly one index. -/
instance : Subsingleton S_.Idx := ⟨fun a b => funext fun d => d.elim0⟩

/-- The float word 0x7F800000 denotes +∞. -/
theorem top_word : Ideal.ofBits .f32 0x7F800000#32 = (⊤ : EReal) := by
  simp [Ideal.ofBits, Ideal.ieee]

/-- If |a| = max a (−a) is strictly below +∞ then a is neither +∞ nor −∞. -/
theorem finite_of_abs_lt (a : EReal)
    (h : Ideal.cmp .olt (max a (-a)) (Ideal.ofBits .f32 0x7F800000#32) = 1#1) : a ≠ ⊤ ∧ a ≠ ⊥ := by
  rw [top_word] at h
  induction a using EReal.rec with
  | bot => simp [Ideal.cmp] at h
  | top => simp [Ideal.cmp] at h
  | coe r => exact ⟨EReal.coe_ne_top r, EReal.coe_ne_bot r⟩

/-- If the finiteness predicate of the five arrays is the all-ones bit, every entry of the first array is a
    real number: the outer "and"s give the first array's joined bit, a joined bit that is 1 gives 1 at every
    index, and at an index the bit is the comparison |x j| < +∞. -/
theorem x_finite [Facts] (x : FVec Ideal S16x64x256x256 .f32) (w1 : FVec Ideal S8x64 .f32) (b1 : FVec Ideal S8 .f32)
    (w2 : FVec Ideal S64x8 .f32) (b2 : FVec Ideal S64 .f32)
    (h : fn (F := Ideal) x w1 b1 w2 b2 = (fun _ => 1#1)) : ∀ j : S16x64x256x256.Idx, x j ≠ ⊤ ∧ x j ≠ ⊥ := by
  intro j
  have e := congrFun h ValueIdx.ix0
  dsimp only [fn, fn_part1] at e
  have ex := (IntOp.andi_eq_one.1 (IntOp.andi_eq_one.1 (IntOp.andi_eq_one.1 (IntOp.andi_eq_one.1 e).1).1).1).1
  have ej := Host.reduce_andi_all _ _ _ _ _ ex j
  exact finite_of_abs_lt (x j) ej

/-- The same, from the precondition of the idealized kernel at one device: the first argument array held
    in the initial memory has only real entries. -/
theorem x_finite_of_pre [Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ j : S16x64x256x256.Idx,
      @Ne EReal (m ((c.tc : Thread Cert.KernelIdeal.nD Cert.KernelIdeal.τ).loc Cert.KernelIdeal.main_arg0) j) ⊤
        ∧ @Ne EReal (m ((c.tc : Thread Cert.KernelIdeal.nD Cert.KernelIdeal.τ).loc Cert.KernelIdeal.main_arg0) j) ⊥ :=
  x_finite _ _ _ _ _ (h c)

end Cert.FiniteInputs

end
-- ==== Proof.Claims.lean ====
/-
  The five claims.

  The three frames are the programs' runs with the values dropped. The idealization rewrote nothing, so the kernel and
  its idealization are one text. For the value claim, both idealized programs end, at entry (b, ch, h, w) of the result,
  at x[b, ch, h, w] times gate ch of batch element b; the reference takes the gates from the centred covariance of the
  batch element's 64 channels, the kernel from their first and second moments, and for finite inputs the two covariance
  matrices are one matrix: ∑ (x_c − μ_c)(x_d − μ_d) = ∑ x_c x_d − (∑ x_c)(∑ x_d) / M with μ = (∑ x) / M.
-/
import proofs.«120931_j11450382811433_2_alg».proof.Defs
import proofs.«120931_j11450382811433_2_alg».proof.Proof.Gen.Kernel.Frame
import proofs.«120931_j11450382811433_2_alg».proof.Proof.Gen.KernelIdeal.Frame
import proofs.«120931_j11450382811433_2_alg».proof.Proof.Gen.ReferenceIdeal
import proofs.«120931_j11450382811433_2_alg».proof.Proof.Gen.Pre_finite_inputs
import proofs.«120931_j11450382811433_2_alg».proof.Proof.KernelRun
import proofs.«120931_j11450382811433_2_alg».proof.Proof.KernelValue
import proofs.«120931_j11450382811433_2_alg».proof.Proof.RefValue
import proofs.«120931_j11450382811433_2_alg».proof.Proof.CovAlgebra
import proofs.«120931_j11450382811433_2_alg».proof.Proof.FiniteInputs

set_option maxRecDepth 16384

noncomputable section

namespace Cert.Proof.Claims

open Idealize.ShloMosaic Idealize.ShloMosaic.TcCoe Idealize.SL.Sem
open Idealize.ShloMosaic.ValueIdx

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Gen in
/-- The value claim, given what the first call leaves in its two output arrays (the first and second moments). -/
theorem algebraic
    (h1 : ∀ (V : (c : Dev nD) → (b : Ref sig .tc) → Buf (Elt Ideal) ((c : Thread nD τ).loc b)) (c : Dev nD),
      (dat0 (F := Ideal) V c).arrAt 1 cfg0.N = fun i => Cert.Spec.mom1 (fun ch p => V c main_v0 (ix3 (i 0) ch p)) (i 2))
    (h2 : ∀ (V : (c : Dev nD) → (b : Ref sig .tc) → Buf (Elt Ideal) ((c : Thread nD τ).loc b)) (c : Dev nD),
      (dat0 (F := Ideal) V c).arrAt 2 cfg0.N = fun i => Cert.Spec.mom2 (fun ch p => V c main_v0 (ix3 (i 0) ch p)) (i 1) (i 2)) :
    Cert.algebraic_KernelIdeal_ReferenceIdeal := by
  intro m ρ m' ρ' hpre hagree
  refine ⟨fun c => W7 m ρ c (Proc.devRef .tc main_v6), Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  funext j
  obtain ⟨b, ch, hh, w, rfl⟩ : ∃ (b : Fin 16) (ch : Fin 64) (hh w : Fin 256), j = ix4 b ch hh w :=
    ⟨j 0, j 1, j 2, j 3, eq_ix4 j⟩
  have hfin := Cert.FiniteInputs.x_finite_of_pre m hpre c
  have hx : ∀ c' p, Cert.KernelValue.chan (Cert.KernelValue.argX m c) b c' p ≠ ⊤
      ∧ Cert.KernelValue.chan (Cert.KernelValue.argX m c) b c' p ≠ ⊥ := fun c' p => hfin _
  refine (Cert.RefValue.res_main_v89_spec m' c b ch hh w).trans ?_
  refine Eq.trans ?_ (Cert.KernelValue.result_apply m ρ h1 h2 c b ch hh w).symm
  rw [(hagree c).1, (hagree c).2.1, (hagree c).2.2.1, (hagree c).2.2.2.1, (hagree c).2.2.2.2,
    Cert.Spec.covMom_eq_covCen _ hx, mul_comm]
  rfl

end Cert.Proof.Claims

end
-- ==== Proof.Moments.lean ====
/-
  The first kernel of the program, read as whole arrays over the extended reals.

  The input is x : [16, 64, 65536]: 16 batches, 64 channels, 65536 positions. The kernel walks a grid of
  32 points t = 2·b + h (batch b, half h). At point t it reads the tile x[b, :, 32768·h ..< 32768·(h+1)]
  and accumulates into two blocks that stay in place for the two points of a batch:
      s1[b, 0, c]  = ∑ₖ x[b, c, k]               (the lane sums of the tile)
      s2[b, c, d]  = ∑ₖ x[b, c, k] · x[b, d, k]   (the tile times its own transpose).
  At the even point (h = 0) both blocks are first set to zero; at the odd point (h = 1) the tile's sums are
  added to what the even point left, and the blocks are written back. Over the extended reals addition is
  associative and 0 is neutral, so after the odd point the blocks hold
      (0 + ∑_{k < 32768} …) + ∑_{32768 ≤ k < 65536} …  =  ∑_{m < 65536} …,
  the first and second moments of batch b over all its positions. Every batch's rows are written back
  once, after its odd point, so after the last point the two output arrays are the moments of every batch
  (`arr1_eq`, `arr2_eq`), for any contents of the buffers when the kernel is entered.
-/
import proofs.«120931_j11450382811433_2_alg».proof.Proof.Gen.KernelIdeal.Frame
import proofs.«120931_j11450382811433_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.Moments

open Cert.KernelIdeal Cert.KernelIdeal.Gen

variable {F : FTy → Type} [FloatOps F]

theorem hz3 : (![0, 0, 0] : Fin 3 → Nat) = fun _ => 0 := funext fun a => by fin_cases a <;> rfl

theorem out_B_1 (c : Dev nD) (i : grid0.Coords) (a2 : Memref sig .tc .vmem S1x64x32768 .f32) (h2 : a2.IsWhole)
    (a3 : Memref sig .tc .vmem S1x1x64 .f32) (h3 : a3.IsWhole) (a4 : Memref sig .tc .vmem S1x64x64 .f32) (h4 : a4.IsWhole)
    (hc : ¬cond0_0 i) (x : Vec F S1x64x32768 .f32) (p1 : Vec F S1x1x64 .f32) (p2 : Vec F S1x64x64 .f32) :
    out0_B_1 c i a2 h2 a3 h3 a4 h4 hc x p1 p2 = k0_pay4 x p1 := by
  unfold out0_B_1
  rw [View.read_writes_eq_canon _ _ _ (cover0_B_1 c i a2 h2 a3 h3 a4 h4 hc x p1 p2)]
  unfold kernelRun0_B
  dsimp only
  rw [View.canon_unit_zero hz3]
  simp only [View.readAt_eq_ld, h2.read_unread, h3.read_unread, View.ld_unit_zero (S := S1x64x32768) hz3,
    View.ld_unit_zero (S := S1x1x64) hz3]

theorem out_B_2 (c : Dev nD) (i : grid0.Coords) (a2 : Memref sig .tc .vmem S1x64x32768 .f32) (h2 : a2.IsWhole)
    (a3 : Memref sig .tc .vmem S1x1x64 .f32) (h3 : a3.IsWhole) (a4 : Memref sig .tc .vmem S1x64x64 .f32) (h4 : a4.IsWhole)
    (hc : ¬cond0_0 i) (x : Vec F S1x64x32768 .f32) (p1 : Vec F S1x1x64 .f32) (p2 : Vec F S1x64x64 .f32) :
    out0_B_2 c i a2 h2 a3 h3 a4 h4 hc x p1 p2 = k0_pay5 x p2 := by
  unfold out0_B_2
  rw [View.read_writes_eq_canon _ _ _ (cover0_B_2 c i a2 h2 a3 h3 a4 h4 hc x p1 p2)]
  unfold kernelRun0_B
  dsimp only
  rw [View.canon_unit_zero hz3]
  simp only [View.readAt_eq_ld, h2.read_unread, h4.read_unread, View.ld_unit_zero (S := S1x64x32768) hz3,
    View.ld_unit_zero (S := S1x64x64) hz3]

theorem out_A_1 (c : Dev nD) (i : grid0.Coords) (a2 : Memref sig .tc .vmem S1x64x32768 .f32) (h2 : a2.IsWhole)
    (a3 : Memref sig .tc .vmem S1x1x64 .f32) (h3 : a3.IsWhole) (a4 : Memref sig .tc .vmem S1x64x64 .f32) (h4 : a4.IsWhole)
    (hc : cond0_0 i) (x : Vec F S1x64x32768 .f32) :
    out0_A_1 c i a2 h2 a3 h3 a4 h4 hc x = k0_pay4 x k0_pay1 := by
  unfold out0_A_1
  rw [View.read_writes_eq_canon _ _ _ (cover0_A_1 c i a2 h2 a3 h3 a4 h4 hc x)]
  unfold kernelRun0_A
  dsimp only
  sl_unfold_words
  rw [View.canon_cons_unit_zero (S := S1x1x64) hz3, View.readCov_unit_zero (S := S1x1x64) _ hz3]
  simp only [View.readAt_eq_ld, h2.read_unread, View.ld_unit_zero (S := S1x64x32768) hz3]

theorem out_A_2 (c : Dev nD) (i : grid0.Coords) (a2 : Memref sig .tc .vmem S1x64x32768 .f32) (h2 : a2.IsWhole)
    (a3 : Memref sig .tc .vmem S1x1x64 .f32) (h3 : a3.IsWhole) (a4 : Memref sig .tc .vmem S1x64x64 .f32) (h4 : a4.IsWhole)
    (hc : cond0_0 i) (x : Vec F S1x64x32768 .f32) :
    out0_A_2 c i a2 h2 a3 h3 a4 h4 hc x = k0_pay5 x k0_pay2 := by
  unfold out0_A_2
  rw [View.read_writes_eq_canon _ _ _ (cover0_A_2 c i a2 h2 a3 h3 a4 h4 hc x)]
  unfold kernelRun0_A
  dsimp only
  sl_unfold_words
  rw [View.canon_cons_unit_zero (S := S1x64x64) hz3, View.readCov_unit_zero (S := S1x64x64) _ hz3]
  simp only [View.readAt_eq_ld, h2.read_unread, View.ld_unit_zero (S := S1x64x32768) hz3]

/-! ## The two accumulating payloads read at an index, over the extended reals -/

section AtIdeal

/-- The tile viewed as a 64 × 32768 matrix reads the tile at (0, ch, k). -/
theorem pay3_apply (x : Vec Ideal S1x64x32768 .f32) (ch : Fin 64) (k : Fin 32768) :
    k0_pay3 (F := Ideal) x (ix2 ch k) = x (ix3 (0 : Fin 1) ch k) := by
  unfold k0_pay3
  exact shapeCast_1ab_ab_apply x _ ch k

/-- The index the lane sum reads at channel `ch`, lane `k`. -/
theorem lift_eq (ch : Fin 64) (k : Fin 32768) :
    reduces_S64x32768_S64.lift (ix1 ch) k = ix2 ch k :=
  funext fun a => Fin.ext (by
    match a with
    | ⟨0, _⟩ => rfl
    | ⟨1, _⟩ => rfl)

/-- The first-moment payload: what the buffer held plus the tile's sum over its 32768 lanes. -/
theorem pay4_apply (x : Vec Ideal S1x64x32768 .f32) (p : Vec Ideal S1x1x64 .f32) (ch : Fin 64) :
    k0_pay4 (F := Ideal) x p (ix3 (0 : Fin 1) (0 : Fin 1) ch)
      = p (ix3 (0 : Fin 1) (0 : Fin 1) ch) + ∑ k : Fin 32768, x (ix3 (0 : Fin 1) ch k) := by
  unfold k0_pay4
  rw [shapeCast_self]
  refine (addf_apply _ _ _).trans ?_
  refine congrArg (p (ix3 (0 : Fin 1) (0 : Fin 1) ch) + ·) ?_
  refine (shapeCast_apply _ shapeCasts_S64_S1x1x64 _ (ix1 ch) ?_).trans ?_
  · rw [Shape.rowMajor_val_one, Shape.rowMajor_val_three]
    show ch.val = (0 * 1 + 0) * 64 + ch.val
    omega
  refine (Ideal.multiReduction_add_single (k0_pay3 (F := Ideal) x) 0x00000000#32 reduces_S64x32768_S64 (.inl rfl) rfl (ix1 ch)).trans ?_
  show ∑ k : Fin 32768, k0_pay3 (F := Ideal) x (reduces_S64x32768_S64.lift (ix1 ch) k) = ∑ k : Fin 32768, x (ix3 (0 : Fin 1) ch k)
  refine Finset.sum_congr rfl fun k _ => ?_
  rw [lift_eq]
  exact pay3_apply x ch k

end AtIdeal

section AtIdealProducts

/-- The contraction index of the tile's product with its own transpose is its one coordinate, a lane. -/
abbrev laneEquiv : dot_S64x32768_S64x32768_S64x64_1_1_0_0_n_n.contr.Idx ≃ Fin 32768 :=
  contrEquiv1 dot_S64x32768_S64x32768_S64x64_1_1_0_0_n_n 32768 rfl rfl

theorem lhs_row (o : S64x64.Idx) (q : dot_S64x32768_S64x32768_S64x64_1_1_0_0_n_n.contr.Idx) :
    (dot_S64x32768_S64x32768_S64x64_1_1_0_0_n_n.lhsIdx o q 0).val = (o 0).val := by
  unfold DotDims.lhsIdx
  rw [dif_neg (show ¬(0 : Fin S64x32768.rank) ∈ dot_S64x32768_S64x32768_S64x64_1_1_0_0_n_n.lhsBatch by decide),
    dif_pos (show (0 : Fin S64x32768.rank) ∈ dot_S64x32768_S64x32768_S64x64_1_1_0_0_n_n.lhsNonContracting by decide)]
  rfl

theorem lhs_lane (o : S64x64.Idx) (q : dot_S64x32768_S64x32768_S64x64_1_1_0_0_n_n.contr.Idx) :
    (dot_S64x32768_S64x32768_S64x64_1_1_0_0_n_n.lhsIdx o q 1).val = (q ⟨0, by decide⟩).val :=
  dot_S64x32768_S64x32768_S64x64_1_1_0_0_n_n.lhsIdx_val_of_single rfl o q

theorem rhs_row (o : S64x64.Idx) (q : dot_S64x32768_S64x32768_S64x64_1_1_0_0_n_n.contr.Idx) :
    (dot_S64x32768_S64x32768_S64x64_1_1_0_0_n_n.rhsIdx o q 0).val = (o 1).val := by
  unfold DotDims.rhsIdx
  rw [dif_neg (show ¬(0 : Fin S64x32768.rank) ∈ dot_S64x32768_S64x32768_S64x64_1_1_0_0_n_n.rhsBatch by decide),
    dif_pos (show (0 : Fin S64x32768.rank) ∈ dot_S64x32768_S64x32768_S64x64_1_1_0_0_n_n.rhsNonContracting by decide)]
  rfl

theorem rhs_lane (o : S64x64.Idx) (q : dot_S64x32768_S64x32768_S64x64_1_1_0_0_n_n.contr.Idx) :
    (dot_S64x32768_S64x32768_S64x64_1_1_0_0_n_n.rhsIdx o q 1).val = (q ⟨0, by decide⟩).val :=
  dot_S64x32768_S64x32768_S64x64_1_1_0_0_n_n.rhsIdx_val_of_single rfl o q

/-- The left factor of entry (i, j) at lane `k` is row `i`, lane `k`. -/
theorem lhs_eq (i j : Fin 64) (k : Fin 32768) :
    dot_S64x32768_S64x32768_S64x64_1_1_0_0_n_n.lhsIdx (ix2 i j) (laneEquiv.symm k) = ix2 i k :=
  funext fun a => Fin.ext (by
    have hk := contrEquiv1_symm_val dot_S64x32768_S64x32768_S64x64_1_1_0_0_n_n 32768 rfl rfl k
    match a with
    | ⟨0, _⟩ => exact lhs_row _ _
    | ⟨1, _⟩ => exact (lhs_lane _ _).trans hk)

/-- The right factor of entry (i, j) at lane `k` is row `j`, lane `k`: the product is with the transpose. -/
theorem rhs_eq (i j : Fin 64) (k : Fin 32768) :
    dot_S64x32768_S64x32768_S64x64_1_1_0_0_n_n.rhsIdx (ix2 i j) (laneEquiv.symm k) = ix2 j k :=
  funext fun a => Fin.ext (by
    have hk := contrEquiv1_symm_val dot_S64x32768_S64x32768_S64x64_1_1_0_0_n_n 32768 rfl rfl k
    match a with
    | ⟨0, _⟩ => exact rhs_row _ _
    | ⟨1, _⟩ => exact (rhs_lane _ _).trans hk)

/-- The second-moment payload: what the buffer held plus the tile's products summed over its 32768 lanes. -/
theorem pay5_apply (x : Vec Ideal S1x64x32768 .f32) (q : Vec Ideal S1x64x64 .f32) (i j : Fin 64) :
    k0_pay5 (F := Ideal) x q (ix3 (0 : Fin 1) i j)
      = q (ix3 (0 : Fin 1) i j) + ∑ k : Fin 32768, x (ix3 (0 : Fin 1) i k) * x (ix3 (0 : Fin 1) j k) := by
  unfold k0_pay5
  rw [shapeCast_self]
  refine (addf_apply _ _ _).trans ?_
  refine congrArg (q (ix3 (0 : Fin 1) i j) + ·) ?_
  refine (shapeCast_ab_1ab_apply _ shapeCasts_S64x64_S1x64x64 (0 : Fin 1) i j).trans ?_
  refine (Ideal.matmul_constant_zero_apply dot_S64x32768_S64x32768_S64x64_1_1_0_0_n_n none
    (k0_pay3 (F := Ideal) x) (k0_pay3 (F := Ideal) x) (ix2 i j)).trans ?_
  rw [← Equiv.sum_comp laneEquiv.symm]
  refine Finset.sum_congr rfl fun k _ => ?_
  rw [lhs_eq, rhs_eq, pay3_apply, pay3_apply]

end AtIdealProducts

/-! ## A tile read at an index, and the halves of a channel's positions -/

section Blocks

variable {F : FTy → Type} [FloatOps F]
variable (V : (c : Dev nD) → (b : Ref sig .tc) → Buf (Elt F) ((c : Thread nD τ).loc b)) (c : Dev nD)

/-- The printed index maps, decided over the 32 grid points: point `t` reads the tile of batch `t / 2`, half `t % 2`,
    and accumulates into the rows of batch `t / 2` of the two outputs. -/
theorem idx_facts : ∀ t : Fin cfg0.N,
    win0_0.index t (0 : Fin 3) = t.val / 2 ∧ win0_0.index t (1 : Fin 3) = 0 ∧ win0_0.index t (2 : Fin 3) = t.val % 2
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0 :=
  (by decide +kernel : ∀ t : Fin grid0.N, _)

/-- The tile at point `t`, at channel `ch` and lane `k`, is the input at batch `t / 2`, channel `ch`, position
    `32768 · (t % 2) + k`. -/
theorem iblk_apply (t : Fin cfg0.N) (b : Fin 16) (hb : b.val = t.val / 2) (ch : Fin 64) (k : Fin 32768)
    (p : Fin 65536) (hp : p.val = 32768 * (t.val % 2) + k.val) :
    (iblk0 V c 0 t : Vec F S1x64x32768 .f32) (ix3 (0 : Fin 1) ch k) = V c main_v0 (ix3 b ch p) := by
  obtain ⟨e0, e1, e2, -⟩ := idx_facts t
  unfold iblk0
  rw [View.read_apply]
  show V c main_v0 _ = V c main_v0 _
  refine congrArg (V c main_v0) (funext fun a => Fin.ext ?_)
  match a with
  | ⟨0, _⟩ => show win0_0.index t (0 : Fin 3) * 1 + 1 * 0 = b.val; rw [e0, hb]; omega
  | ⟨1, _⟩ => show win0_0.index t (1 : Fin 3) * 64 + 1 * ch.val = ch.val; rw [e1]; omega
  | ⟨2, _⟩ => show win0_0.index t (2 : Fin 3) * 32768 + 1 * k.val = p.val; rw [e2, hp]; omega

end Blocks

/-- A sum over the 65536 positions is the sum over the first 32768 plus the sum over the last 32768. -/
theorem sum_halves {M : Type} [AddCommMonoid M] (f : Fin 65536 → M) :
    ∑ m : Fin 65536, f m
      = ∑ k : Fin 32768, f ⟨k.val, by have := k.isLt; omega⟩ + ∑ k : Fin 32768, f ⟨32768 + k.val, by have := k.isLt; omega⟩ := by
  have h : (32768 + 32768 : ℕ) = 65536 := by norm_num
  rw [← Equiv.sum_comp (finCongr h) f, Fin.sum_univ_add]
  refine congrArg₂ (· + ·) (Finset.sum_congr rfl fun k _ => ?_) (Finset.sum_congr rfl fun k _ => ?_) <;> rfl

/-! ## What the two buffers hold after a point -/

section Points

variable {F : FTy → Type} [FloatOps F]
variable (V : (c : Dev nD) → (b : Ref sig .tc) → Buf (Elt F) ((c : Thread nD τ).loc b)) (c : Dev nD)

/-- After an even point — the first half of a batch — the buffers hold the zero blocks plus the tile's sums. -/
theorem outs_even (t : Fin cfg0.N) (h0 : t.val % 2 = 0) :
    outsAt0 V c t.val t.isLt
      = (k0_pay4 (iblk0 V c 0 t) k0_pay1, k0_pay5 (iblk0 V c 0 t) k0_pay2) :=
  (outsAt0_A V c t h0).trans (congrArg₂ Prod.mk
    (out_A_1 c (grid0.coords t) (ms0_0 t) (hs0_0 t) (ms0_1 t) (hs0_1 t) (ms0_2 t) (hs0_2 t) ((hcond0_0 t).mpr h0) (iblk0 V c 0 t))
    (out_A_2 c (grid0.coords t) (ms0_0 t) (hs0_0 t) (ms0_1 t) (hs0_1 t) (ms0_2 t) (hs0_2 t) ((hcond0_0 t).mpr h0) (iblk0 V c 0 t)))

/-- After an odd point — the second half — they hold what the point before left plus the tile's sums. -/
theorem outs_odd (t : Fin cfg0.N) (h0 : ¬t.val % 2 = 0) :
    outsAt0 V c t.val t.isLt
      = (k0_pay4 (iblk0 V c 0 t) (outsAt0 V c (t.val - 1) (Nat.lt_of_le_of_lt (Nat.sub_le _ _) t.isLt)).1,
         k0_pay5 (iblk0 V c 0 t) (outsAt0 V c (t.val - 1) (Nat.lt_of_le_of_lt (Nat.sub_le _ _) t.isLt)).2) :=
  (outsAt0_B V c t h0).trans (congrArg₂ Prod.mk
    (out_B_1 c (grid0.coords t) (ms0_0 t) (hs0_0 t) (ms0_1 t) (hs0_1 t) (ms0_2 t) (hs0_2 t) (fun h => h0 ((hcond0_0 t).mp h)) (iblk0 V c 0 t) _ _)
    (out_B_2 c (grid0.coords t) (ms0_0 t) (hs0_0 t) (ms0_1 t) (hs0_1 t) (ms0_2 t) (hs0_2 t) (fun h => h0 ((hcond0_0 t).mp h)) (iblk0 V c 0 t) _ _))

end Points

section Sums

/-- Two tiles accumulated from the zero block: the two lane sums added. -/
theorem first_two (xA xB : Vec Ideal S1x64x32768 .f32) (ch : Fin 64) :
    k0_pay4 (F := Ideal) xB (k0_pay4 (F := Ideal) xA (k0_pay1 (F := Ideal))) (ix3 (0 : Fin 1) (0 : Fin 1) ch)
      = (∑ k : Fin 32768, xA (ix3 (0 : Fin 1) ch k)) + ∑ k : Fin 32768, xB (ix3 (0 : Fin 1) ch k) := by
  rw [pay4_apply, pay4_apply]
  show (Ideal.ofBits .f32 0x00000000#32 + _) + _ = _
  rw [Ideal.ofBits_zero_f32, zero_add]

/-- Two tiles' products accumulated from the zero block: the two sums of products added. -/
theorem second_two (xA xB : Vec Ideal S1x64x32768 .f32) (i j : Fin 64) :
    k0_pay5 (F := Ideal) xB (k0_pay5 (F := Ideal) xA (k0_pay2 (F := Ideal))) (ix3 (0 : Fin 1) i j)
      = (∑ k : Fin 32768, xA (ix3 (0 : Fin 1) i k) * xA (ix3 (0 : Fin 1) j k))
        + ∑ k : Fin 32768, xB (ix3 (0 : Fin 1) i k) * xB (ix3 (0 : Fin 1) j k) := by
  rw [pay5_apply, pay5_apply]
  show (Ideal.ofBits .f32 0x00000000#32 + _) + _ = _
  rw [Ideal.ofBits_zero_f32, zero_add]

variable (V : (c : Dev nD) → (b : Ref sig .tc) → Buf (Elt Ideal) ((c : Thread nD τ).loc b)) (c : Dev nD)

/-- Batch `b` of the input: 64 channels over 65536 positions. -/
abbrev chan (b : Fin 16) : Fin 64 → Fin 65536 → EReal := fun ch p => V c main_v0 (ix3 b ch p)

/-- After the odd point `t` the first buffer holds the channel sums of batch `t / 2` over all 65536 positions. -/
theorem first_at_odd (t : Fin cfg0.N) (h1 : t.val % 2 = 1) (b : Fin 16) (hb : b.val = t.val / 2) (ch : Fin 64) :
    (outsAt0 V c t.val t.isLt).1 (ix3 (0 : Fin 1) (0 : Fin 1) ch) = Cert.Spec.mom1 (chan V c b) ch := by
  have hodd : ¬t.val % 2 = 0 := by omega
  have hs : (⟨t.val - 1, Nat.lt_of_le_of_lt (Nat.sub_le _ _) t.isLt⟩ : Fin cfg0.N).val % 2 = 0 := by
    show (t.val - 1) % 2 = 0; omega
  rw [outs_odd V c t hodd]
  show k0_pay4 (iblk0 V c 0 t) (outsAt0 V c (⟨t.val - 1, Nat.lt_of_le_of_lt (Nat.sub_le _ _) t.isLt⟩ : Fin cfg0.N).val
    (⟨t.val - 1, Nat.lt_of_le_of_lt (Nat.sub_le _ _) t.isLt⟩ : Fin cfg0.N).isLt).1 (ix3 (0 : Fin 1) (0 : Fin 1) ch) = _
  rw [outs_even V c _ hs]
  refine (first_two (iblk0 V c 0 ⟨t.val - 1, Nat.lt_of_le_of_lt (Nat.sub_le _ _) t.isLt⟩) (iblk0 V c 0 t) ch).trans ?_
  unfold Cert.Spec.mom1
  rw [sum_halves]
  refine congrArg₂ (· + ·) (Finset.sum_congr rfl fun k _ => ?_) (Finset.sum_congr rfl fun k _ => ?_)
  · exact iblk_apply V c ⟨t.val - 1, Nat.lt_of_le_of_lt (Nat.sub_le _ _) t.isLt⟩ b (by show b.val = (t.val - 1) / 2; omega) ch k _
      (by show k.val = 32768 * ((t.val - 1) % 2) + k.val; omega)
  · exact iblk_apply V c t b hb ch k _ (by show 32768 + k.val = 32768 * (t.val % 2) + k.val; omega)

/-- After the odd point `t` the second buffer holds the sums of products of batch `t / 2` over all 65536 positions. -/
theorem second_at_odd (t : Fin cfg0.N) (h1 : t.val % 2 = 1) (b : Fin 16) (hb : b.val = t.val / 2) (i j : Fin 64) :
    (outsAt0 V c t.val t.isLt).2 (ix3 (0 : Fin 1) i j) = Cert.Spec.mom2 (chan V c b) i j := by
  have hodd : ¬t.val % 2 = 0 := by omega
  have hs : (⟨t.val - 1, Nat.lt_of_le_of_lt (Nat.sub_le _ _) t.isLt⟩ : Fin cfg0.N).val % 2 = 0 := by
    show (t.val - 1) % 2 = 0; omega
  rw [outs_odd V c t hodd]
  show k0_pay5 (iblk0 V c 0 t) (outsAt0 V c (⟨t.val - 1, Nat.lt_of_le_of_lt (Nat.sub_le _ _) t.isLt⟩ : Fin cfg0.N).val
    (⟨t.val - 1, Nat.lt_of_le_of_lt (Nat.sub_le _ _) t.isLt⟩ : Fin cfg0.N).isLt).2 (ix3 (0 : Fin 1) i j) = _
  rw [outs_even V c _ hs]
  refine (second_two (iblk0 V c 0 ⟨t.val - 1, Nat.lt_of_le_of_lt (Nat.sub_le _ _) t.isLt⟩) (iblk0 V c 0 t) i j).trans ?_
  unfold Cert.Spec.mom2
  rw [sum_halves]
  have hbs : b.val = (⟨t.val - 1, Nat.lt_of_le_of_lt (Nat.sub_le _ _) t.isLt⟩ : Fin cfg0.N).val / 2 := by
    show b.val = (t.val - 1) / 2; omega
  refine congrArg₂ (· + ·) (Finset.sum_congr rfl fun k _ => ?_) (Finset.sum_congr rfl fun k _ => ?_)
  · exact congrArg₂ (· * ·)
      (iblk_apply V c ⟨t.val - 1, Nat.lt_of_le_of_lt (Nat.sub_le _ _) t.isLt⟩ b hbs i k _
        (by show k.val = 32768 * ((t.val - 1) % 2) + k.val; omega))
      (iblk_apply V c ⟨t.val - 1, Nat.lt_of_le_of_lt (Nat.sub_le _ _) t.isLt⟩ b hbs j k _
        (by show k.val = 32768 * ((t.val - 1) % 2) + k.val; omega))
  · exact congrArg₂ (· * ·)
      (iblk_apply V c t b hb i k _ (by show 32768 + k.val = 32768 * (t.val % 2) + k.val; omega))
      (iblk_apply V c t b hb j k _ (by show 32768 + k.val = 32768 * (t.val % 2) + k.val; omega))

end Sums

/-! ## The two output arrays after the last point -/

section Arrays

variable (V : (c : Dev nD) → (b : Ref sig .tc) → Buf (Elt Ideal) ((c : Thread nD τ).loc b)) (c : Dev nD)

/-- The first output as one function of the input: per batch and channel, the sum over the 65536 positions. -/
abbrev firstMoments : S16x1x64.Idx → EReal :=
  fun i => Cert.Spec.mom1 (fun ch p => V c main_v0 (ix3 (i 0) ch p)) (i 2)

/-- The second output as one function of the input: per batch and pair of channels, the sum of products. -/
abbrev secondMoments : S16x64x64.Idx → EReal :=
  fun i => Cert.Spec.mom2 (fun ch p => V c main_v0 (ix3 (i 0) ch p)) (i 1) (i 2)

/-- The point at which the second half of batch `b` is read: the one after which its rows are written back. -/
def lastOf (b : Fin 16) : Fin cfg0.N :=
  ⟨2 * b.val + 1, by have := b.isLt; rw [show cfg0.N = 32 from N_0]; omega⟩

theorem lastOf_val (b : Fin 16) : (lastOf b).val = 2 * b.val + 1 := rfl

/-- An element of the first buffer after an odd point is the first output's function where the block sits. -/
theorem first_at (t : Fin cfg0.N) (h1 : t.val % 2 = 1) (y : S1x1x64.Idx) :
    (outsAt0 V c t.val t.isLt).1 y = firstMoments V c (((cfg0.win 1).blk t).view.emb y) := by
  have ht : t.val < 32 := lt_of_lt_of_eq t.isLt (show cfg0.N = 32 from N_0)
  obtain ⟨-, -, -, e0, e1, e2, -⟩ := idx_facts t
  obtain ⟨u, v, ch, rfl⟩ : ∃ (u : Fin 1) (v : Fin 1) (ch : Fin 64), y = ix3 u v ch := ⟨y 0, y 1, y 2, eq_ix3 y⟩
  obtain rfl : u = 0 := Subsingleton.elim _ _
  obtain rfl : v = 0 := Subsingleton.elim _ _
  have hemb : ((cfg0.win 1).blk t).view.emb (ix3 (0 : Fin 1) (0 : Fin 1) ch)
      = ix3 (⟨t.val / 2, by omega⟩ : Fin 16) (0 : Fin 1) ch :=
    funext fun a => Fin.ext (by
      match a with
      | ⟨0, _⟩ => show win0_1.index t (0 : Fin 3) * 1 + 1 * 0 = t.val / 2; omega
      | ⟨1, _⟩ => show win0_1.index t (1 : Fin 3) * 1 + 1 * 0 = 0; omega
      | ⟨2, _⟩ => show win0_1.index t (2 : Fin 3) * 64 + 1 * ch.val = ch.val; omega)
  rw [hemb]
  exact first_at_odd V c t h1 ⟨t.val / 2, by omega⟩ rfl ch

/-- An element of the second buffer after an odd point is the second output's function where the block sits. -/
theorem second_at (t : Fin cfg0.N) (h1 : t.val % 2 = 1) (y : S1x64x64.Idx) :
    (outsAt0 V c t.val t.isLt).2 y = secondMoments V c (((cfg0.win 2).blk t).view.emb y) := by
  have ht : t.val < 32 := lt_of_lt_of_eq t.isLt (show cfg0.N = 32 from N_0)
  obtain ⟨-, -, -, -, -, -, e0, e1, e2⟩ := idx_facts t
  obtain ⟨u, i, j, rfl⟩ : ∃ (u : Fin 1) (i : Fin 64) (j : Fin 64), y = ix3 u i j := ⟨y 0, y 1, y 2, eq_ix3 y⟩
  obtain rfl : u = 0 := Subsingleton.elim _ _
  have hemb : ((cfg0.win 2).blk t).view.emb (ix3 (0 : Fin 1) i j)
      = ix3 (⟨t.val / 2, by omega⟩ : Fin 16) i j :=
    funext fun a => Fin.ext (by
      match a with
      | ⟨0, _⟩ => show win0_2.index t (0 : Fin 3) * 1 + 1 * 0 = t.val / 2; omega
      | ⟨1, _⟩ => show win0_2.index t (1 : Fin 3) * 64 + 1 * i.val = i.val; omega
      | ⟨2, _⟩ => show win0_2.index t (2 : Fin 3) * 64 + 1 * j.val = j.val; omega)
  rw [hemb]
  exact second_at_odd V c t h1 ⟨t.val / 2, by omega⟩ rfl i j

-- (comparing the cut block with the block itself walks the block's coordinates: deeper than the default budget)
set_option maxRecDepth 131072 in
/-- What a point writes back of the first output is its block of the first output's function. -/
theorem flushed_first (t : Fin cfg0.N) (hf : (cfg0.win 1).flush t = true) :
    (dat0 V c).flushed 1 t = ((cfg0.win 1).blk t).view.read (Elt Ideal) (firstMoments V c) := by
  have h1 : t.val % 2 = 1 := (flush0_1 t).mp hf
  show (cfg0.win 1).cut (grid0.coords t) ((dat0 V c).after 1 t) = _
  rw [after0_1]
  refine funext fun y => ?_
  rw [View.read_apply]
  exact first_at V c t h1 y

set_option maxRecDepth 131072 in
/-- What a point writes back of the second output is its block of the second output's function. -/
theorem flushed_second (t : Fin cfg0.N) (hf : (cfg0.win 2).flush t = true) :
    (dat0 V c).flushed 2 t = ((cfg0.win 2).blk t).view.read (Elt Ideal) (secondMoments V c) := by
  have h1 : t.val % 2 = 1 := (flush0_2 t).mp hf
  show (cfg0.win 2).cut (grid0.coords t) ((dat0 V c).after 2 t) = _
  rw [after0_2]
  refine funext fun y => ?_
  rw [View.read_apply]
  exact second_at V c t h1 y

/-- Every row of the first output is written back: batch `b`'s after the point `2b + 1`. -/
theorem cover_first (i : S16x1x64.Idx) :
    ∃ t : Fin cfg0.N, (cfg0.win 1).flush t = true ∧ i ∈ ((cfg0.win 1).blk t).view.set := by
  have h0 : (i 0).val < 16 := (i 0).isLt
  have h1 : (i 1).val < 1 := (i 1).isLt
  have h2 : (i 2).val < 64 := (i 2).isLt
  obtain ⟨b, hb⟩ : ∃ b : Fin 16, b.val = (i 0).val := ⟨i 0, rfl⟩
  refine ⟨lastOf b, (flush0_1 _).mpr (by rw [lastOf_val]; omega), ?_⟩
  obtain ⟨-, -, -, e0, e1, e2, -⟩ := idx_facts (lastOf b)
  rw [lastOf_val] at e0
  show i ∈ ((View.whole main_v1_0).slice (win0_1.rect (lastOf b))).set
  rw [View.set_slice_whole, Rect.mem_set_unit]
  intro a
  match a with
  | ⟨0, _⟩ =>
    show win0_1.index (lastOf b) (0 : Fin 3) * 1 ≤ (i 0).val ∧ (i 0).val < win0_1.index (lastOf b) (0 : Fin 3) * 1 + 1
    omega
  | ⟨1, _⟩ =>
    show win0_1.index (lastOf b) (1 : Fin 3) * 1 ≤ (i 1).val ∧ (i 1).val < win0_1.index (lastOf b) (1 : Fin 3) * 1 + 1
    omega
  | ⟨2, _⟩ =>
    show win0_1.index (lastOf b) (2 : Fin 3) * 64 ≤ (i 2).val ∧ (i 2).val < win0_1.index (lastOf b) (2 : Fin 3) * 64 + 64
    omega

/-- Every row block of the second output is written back: batch `b`'s after the point `2b + 1`. -/
theorem cover_second (i : S16x64x64.Idx) :
    ∃ t : Fin cfg0.N, (cfg0.win 2).flush t = true ∧ i ∈ ((cfg0.win 2).blk t).view.set := by
  have h0 : (i 0).val < 16 := (i 0).isLt
  have h1 : (i 1).val < 64 := (i 1).isLt
  have h2 : (i 2).val < 64 := (i 2).isLt
  obtain ⟨b, hb⟩ : ∃ b : Fin 16, b.val = (i 0).val := ⟨i 0, rfl⟩
  refine ⟨lastOf b, (flush0_2 _).mpr (by rw [lastOf_val]; omega), ?_⟩
  obtain ⟨-, -, -, -, -, -, e0, e1, e2⟩ := idx_facts (lastOf b)
  rw [lastOf_val] at e0
  show i ∈ ((View.whole main_v1_1).slice (win0_2.rect (lastOf b))).set
  rw [View.set_slice_whole, Rect.mem_set_unit]
  intro a
  match a with
  | ⟨0, _⟩ =>
    show win0_2.index (lastOf b) (0 : Fin 3) * 1 ≤ (i 0).val ∧ (i 0).val < win0_2.index (lastOf b) (0 : Fin 3) * 1 + 1
    omega
  | ⟨1, _⟩ =>
    show win0_2.index (lastOf b) (1 : Fin 3) * 64 ≤ (i 1).val ∧ (i 1).val < win0_2.index (lastOf b) (1 : Fin 3) * 64 + 64
    omega
  | ⟨2, _⟩ =>
    show win0_2.index (lastOf b) (2 : Fin 3) * 64 ≤ (i 2).val ∧ (i 2).val < win0_2.index (lastOf b) (2 : Fin 3) * 64 + 64
    omega

/-- After the last point the first output holds, per batch and channel, the sum of the channel over its positions. -/
theorem arr1_eq : (dat0 (F := Ideal) V c).arrAt 1 cfg0.N
    = fun i => Cert.Spec.mom1 (fun ch p => V c main_v0 (ix3 (i 0) ch p)) (i 2) :=
  (dat0 V c).arrAt_eq_of_cover 1 (firstMoments V c) (flushed_first V c) cover_first

/-- After the last point the second output holds, per batch and pair of channels, the sum of their products. -/
theorem arr2_eq : (dat0 (F := Ideal) V c).arrAt 2 cfg0.N
    = fun i => Cert.Spec.mom2 (fun ch p => V c main_v0 (ix3 (i 0) ch p)) (i 1) (i 2) :=
  (dat0 V c).arrAt_eq_of_cover 2 (secondMoments V c) (flushed_second V c) cover_second

end Arrays

end Cert.Moments

end
-- ==== Proof.lean ====
/-
  Second-order channel attention: the kernel against its reference, over the extended reals.

  Both programs map x : [16, 64, 256, 256] to x · gate, one gate per batch element and channel. For a batch element the
  64 channels are flattened to 65536 positions; their 64 × 64 covariance matrix is divided by its trace, five
  Newton–Schulz steps approximate the square root of the normalised matrix, the result is scaled back by the square
  root of the trace, its columns are averaged over the rows, and a two-layer perceptron (a rectifier, then the logistic
  function) turns the 64 averages into the 64 gates.

  The reference takes the covariance in the centred form ∑ (x_c − μ_c)(x_d − μ_d) / M. The kernel runs three calls: the
  first accumulates the moments ∑ x_c and ∑ x_c x_d over two tiles of positions per batch element, the second builds the
  covariance (∑ x_c x_d − (∑ x_c)(∑ x_d) / M) / M from them and computes the gates, the third scales x. From the
  covariance on, both sides apply the same operations in the same order, so they agree on every extended real; the two
  covariance forms agree for finite inputs, which is where the precondition is used.

  The modules: Spec (the function), CovAlgebra (the two covariance forms), FiniteInputs (the precondition read as
  finiteness), RefValue (the reference's result is the function), Moments / GateValue / GatesArray / Scale (the three calls'
  output arrays), Fold and KernelRun (the kernel's run, its boundaries read back to the launch), KernelValue (the
  kernel's result is the function), Claims (the five claims).
-/
import proofs.«120931_j11450382811433_2_alg».proof.Defs
import proofs.«120931_j11450382811433_2_alg».proof.Proof.Gen.Kernel
import proofs.«120931_j11450382811433_2_alg».proof.Proof.Gen.Kernel.Skeleton
import proofs.«120931_j11450382811433_2_alg».proof.Proof.Gen.Kernel.Launch
import proofs.«120931_j11450382811433_2_alg».proof.Proof.Gen.Kernel.Points
import proofs.«120931_j11450382811433_2_alg».proof.Proof.Gen.Kernel.Frame
import proofs.«120931_j11450382811433_2_alg».proof.Proof.Gen.KernelIdeal
import proofs.«120931_j11450382811433_2_alg».proof.Proof.Gen.KernelIdeal.Skeleton
import proofs.«120931_j11450382811433_2_alg».proof.Proof.Gen.KernelIdeal.Launch
import proofs.«120931_j11450382811433_2_alg».proof.Proof.Gen.KernelIdeal.Points
import proofs.«120931_j11450382811433_2_alg».proof.Proof.Gen.KernelIdeal.Frame
import proofs.«120931_j11450382811433_2_alg».proof.Proof.Gen.ReferenceIdeal
import proofs.«120931_j11450382811433_2_alg».proof.Proof.Gen.Pre_finite_inputs
import proofs.«120931_j11450382811433_2_alg».proof.Proof.Claims
import proofs.«120931_j11450382811433_2_alg».proof.Proof.Moments
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves,
    Claims.algebraic (fun V c => Cert.Moments.arr1_eq V c) (fun V c => Cert.Moments.arr2_eq V c)⟩

end Cert.Proof

end
